-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S4x4096x512 .f32) (main_arg1 : FVec F S1536x512 .f32) (main_arg2 : FVec F S1536 .f32) (main_arg3 : FVec F S512x512 .f32) (main_arg4 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S4x4096x512 : Shape := ⟨3, ![4, 4096, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S16384x512 : Shape := ⟨2, ![16384, 512]⟩
abbrev S512x1536 : Shape := ⟨2, ![512, 1536]⟩
abbrev S4x8x512x512 : Shape := ⟨4, ![4, 8, 512, 512]⟩
abbrev S1x8x64x512 : Shape := ⟨4, ![1, 8, 64, 512]⟩
abbrev S1x1536 : Shape := ⟨2, ![1, 1536]⟩
abbrev S512x8x64 : Shape := ⟨3, ![512, 8, 64]⟩
abbrev S512x1x64 : Shape := ⟨3, ![512, 1, 64]⟩
abbrev S512x8 : Shape := ⟨2, ![512, 8]⟩
abbrev S512x1 : Shape := ⟨2, ![512, 1]⟩
abbrev S512x8x1 : Shape := ⟨3, ![512, 8, 1]⟩
abbrev S512x64 : Shape := ⟨2, ![512, 64]⟩
abbrev S64x512 : Shape := ⟨2, ![64, 512]⟩
abbrev S1x1x64x512 : Shape := ⟨4, ![1, 1, 64, 512]⟩
abbrev S2048x512 : Shape := ⟨2, ![2048, 512]⟩
abbrev S1x512 : Shape := ⟨2, ![1, 512]⟩

abbrev nBuf : Space → Nat
  | .hbm => 14
  | .vmem => 12
  | .smem => 0
  | _ => 0

abbrev bufTy : (tb : Table) → Fin (tcTables nBuf tb) → BufTy
  | .hbm, ⟨0, _⟩ => ⟨S4x4096x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S16384x512, .f32⟩
  | .hbm, ⟨6, _⟩ => ⟨S512x1536, .f32⟩
  | .hbm, ⟨7, _⟩ => ⟨S512x1536, .bf16⟩
  | .hbm, ⟨8, _⟩ => ⟨S512x512, .f32⟩
  | .hbm, ⟨9, _⟩ => ⟨S512x512, .bf16⟩
  | .hbm, ⟨10, _⟩ => ⟨S4x8x512x512, .bf16⟩
  | .hbm, ⟨11, _⟩ => ⟨S16384x512, .bf16⟩
  | .hbm, ⟨12, _⟩ => ⟨S16384x512, .f32⟩
  | .hbm, ⟨13, _⟩ => ⟨S4x4096x512, .f32⟩
  | .local _ .vmem, ⟨0, _⟩ => ⟨S512x512, .f32⟩
  | .local _ .vmem, ⟨1, _⟩ => ⟨S512x512, .f32⟩
  | .local _ .vmem, ⟨2, _⟩ => ⟨S512x1536, .bf16⟩
  | .local _ .vmem, ⟨3, _⟩ => ⟨S1536, .f32⟩
  | .local _ .vmem, ⟨4, _⟩ => ⟨S1x8x64x512, .bf16⟩
  | .local _ .vmem, ⟨5, _⟩ => ⟨S1x8x64x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .bf16⟩
  | .local _ .vmem, ⟨9, _⟩ => ⟨S512, .f32⟩
  | .local _ .vmem, ⟨10, _⟩ => ⟨S2048x512, .f32⟩
  | .local _ .vmem, ⟨11, _⟩ => ⟨S2048x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x4096x512_S16384x512 : S4x4096x512.ShapeCasts S16384x512
  transposes_S1536x512_S512x1536_1_0 : S1536x512.Transposes [1, 0] S512x1536
  bitsLt_bf16_f32 : FTy.bits .bf16 < FTy.bits .f32
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S512x1536 : S1x1536.Broadcasts S512x1536
  slices_S512x1536_o0_0_S512x512 : S512x1536.Slices ![0, 0] S512x512
  shapeCasts_S512x512_S512x8x64 : S512x512.ShapeCasts S512x8x64
  slices_S512x1536_o0_512_S512x512 : S512x1536.Slices ![0, 512] S512x512
  slices_S512x1536_o0_1024_S512x512 : S512x1536.Slices ![0, 1024] S512x512
  slices_S512x8x64_o0_0_0_S512x1x64 : S512x8x64.Slices ![0, 0, 0] S512x1x64
  broadcasts_S512x1x64_S512x8x64 : S512x1x64.Broadcasts S512x8x64
  reduces_S512x8x64_S512x8 : S512x8x64.Reduces [2] S512x8
  reduces_S512x8_S512 : S512x8.Reduces [1] S512
  shapeCasts_S512_S512x1 : S512.ShapeCasts S512x1
  broadcasts_S512x1_S512x8 : S512x1.Broadcasts S512x8
  shapeCasts_S512x8_S512x8x1 : S512x8.ShapeCasts S512x8x1
  broadcasts_S512x8x1_S512x8x64 : S512x8x1.Broadcasts S512x8x64
  reduces_S512x8x64_S512x64 : S512x8x64.Reduces [1] S512x64
  shapeCasts_S512x64_S64x512 : S512x64.ShapeCasts S64x512
  inb_S1x8x64x512_S1x1x64x512_0_0_0_0 : ∀ a, (![0, 0, 0, 0] : Fin 4 → Nat) a + S1x1x64x512.size a ≤ S1x8x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  packedbf16_S1x8x64x512_S1x1x64x512_0_0_0_0 : (Rect.unit (s := S1x8x64x512) ![0, 0, 0, 0] S1x1x64x512.size inb_S1x8x64x512_S1x1x64x512_0_0_0_0).PackedRows (EltTy.packing .bf16)
  slices_S512x8x64_o0_1_0_S512x1x64 : S512x8x64.Slices ![0, 1, 0] S512x1x64
  inb_S1x8x64x512_S1x1x64x512_0_1_0_0 : ∀ a, (![0, 1, 0, 0] : Fin 4 → Nat) a + S1x1x64x512.size a ≤ S1x8x64x512.size a
  packedbf16_S1x8x64x512_S1x1x64x512_0_1_0_0 : (Rect.unit (s := S1x8x64x512) ![0, 1, 0, 0] S1x1x64x512.size inb_S1x8x64x512_S1x1x64x512_0_1_0_0).PackedRows (EltTy.packing .bf16)
  slices_S512x8x64_o0_2_0_S512x1x64 : S512x8x64.Slices ![0, 2, 0] S512x1x64
  inb_S1x8x64x512_S1x1x64x512_0_2_0_0 : ∀ a, (![0, 2, 0, 0] : Fin 4 → Nat) a + S1x1x64x512.size a ≤ S1x8x64x512.size a
  packedbf16_S1x8x64x512_S1x1x64x512_0_2_0_0 : (Rect.unit (s := S1x8x64x512) ![0, 2, 0, 0] S1x1x64x512.size inb_S1x8x64x512_S1x1x64x512_0_2_0_0).PackedRows (EltTy.packing .bf16)
  slices_S512x8x64_o0_3_0_S512x1x64 : S512x8x64.Slices ![0, 3, 0] S512x1x64
  inb_S1x8x64x512_S1x1x64x512_0_3_0_0 : ∀ a, (![0, 3, 0, 0] : Fin 4 → Nat) a + S1x1x64x512.size a ≤ S1x8x64x512.size a
  packedbf16_S1x8x64x512_S1x1x64x512_0_3_0_0 : (Rect.unit (s := S1x8x64x512) ![0, 3, 0, 0] S1x1x64x512.size inb_S1x8x64x512_S1x1x64x512_0_3_0_0).PackedRows (EltTy.packing .bf16)
  slices_S512x8x64_o0_4_0_S512x1x64 : S512x8x64.Slices ![0, 4, 0] S512x1x64
  inb_S1x8x64x512_S1x1x64x512_0_4_0_0 : ∀ a, (![0, 4, 0, 0] : Fin 4 → Nat) a + S1x1x64x512.size a ≤ S1x8x64x512.size a
  packedbf16_S1x8x64x512_S1x1x64x512_0_4_0_0 : (Rect.unit (s := S1x8x64x512) ![0, 4, 0, 0] S1x1x64x512.size inb_S1x8x64x512_S1x1x64x512_0_4_0_0).PackedRows (EltTy.packing .bf16)
  slices_S512x8x64_o0_5_0_S512x1x64 : S512x8x64.Slices ![0, 5, 0] S512x1x64
  inb_S1x8x64x512_S1x1x64x512_0_5_0_0 : ∀ a, (![0, 5, 0, 0] : Fin 4 → Nat) a + S1x1x64x512.size a ≤ S1x8x64x512.size a
  packedbf16_S1x8x64x512_S1x1x64x512_0_5_0_0 : (Rect.unit (s := S1x8x64x512) ![0, 5, 0, 0] S1x1x64x512.size inb_S1x8x64x512_S1x1x64x512_0_5_0_0).PackedRows (EltTy.packing .bf16)
  slices_S512x8x64_o0_6_0_S512x1x64 : S512x8x64.Slices ![0, 6, 0] S512x1x64
  inb_S1x8x64x512_S1x1x64x512_0_6_0_0 : ∀ a, (![0, 6, 0, 0] : Fin 4 → Nat) a + S1x1x64x512.size a ≤ S1x8x64x512.size a
  packedbf16_S1x8x64x512_S1x1x64x512_0_6_0_0 : (Rect.unit (s := S1x8x64x512) ![0, 6, 0, 0] S1x1x64x512.size inb_S1x8x64x512_S1x1x64x512_0_6_0_0).PackedRows (EltTy.packing .bf16)
  slices_S512x8x64_o0_7_0_S512x1x64 : S512x8x64.Slices ![0, 7, 0] S512x1x64
  inb_S1x8x64x512_S1x1x64x512_0_7_0_0 : ∀ a, (![0, 7, 0, 0] : Fin 4 → Nat) a + S1x1x64x512.size a ≤ S1x8x64x512.size a
  packedbf16_S1x8x64x512_S1x1x64x512_0_7_0_0 : (Rect.unit (s := S1x8x64x512) ![0, 7, 0, 0] S1x1x64x512.size inb_S1x8x64x512_S1x1x64x512_0_7_0_0).PackedRows (EltTy.packing .bf16)
  shapeCasts_S4x8x512x512_S16384x512 : S4x8x512x512.ShapeCasts S16384x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S16384x512_S4x4096x512 : S16384x512.ShapeCasts S4x4096x512
  dot_S512x512_S512x1536_S512x1536_1_0_0_1_n_n_wf : DotDims.WF S512x512 S512x1536 S512x1536 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64x512.size a ≤ S4x8x512x512.size a
  hwx0_3 : ∀ i : grid0.Coords, EltTy.bits .bf16 = 32 ∨ (Rect.block (s := S4x8x512x512) S1x8x64x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x512.size a
  hwx1_0 : ∀ i : grid1.Coords, EltTy.bits .bf16 = 32 ∨ (Rect.block (s := S16384x512) S2048x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S16384x512.size a
  hwx1_3 : ∀ i : grid1.Coords, EltTy.bits .f32 = 32 ∨ (Rect.block (s := S16384x512) S2048x512.size (cc1_transform_3 i) (hinb1_3 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x512 : Shape := ⟨3, ![4, 4096, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S4x4096x1536 : Shape := ⟨3, ![4, 4096, 1536]⟩
abbrev S1x1x1536 : Shape := ⟨3, ![1, 1, 1536]⟩
abbrev S4x4096x3x8x64 : Shape := ⟨5, ![4, 4096, 3, 8, 64]⟩
abbrev S4x4096x1x8x64 : Shape := ⟨5, ![4, 4096, 1, 8, 64]⟩
abbrev S4x4096x8x64 : Shape := ⟨4, ![4, 4096, 8, 64]⟩
abbrev S4x4096x8x8 : Shape := ⟨4, ![4, 4096, 8, 8]⟩
abbrev S_ : Shape := ⟨0, ![]⟩
abbrev S4x4096x8 : Shape := ⟨3, ![4, 4096, 8]⟩
abbrev S4x4096x8x1 : Shape := ⟨4, ![4, 4096, 8, 1]⟩
abbrev S4x8x4096x64 : Shape := ⟨4, ![4, 8, 4096, 64]⟩
abbrev S1x1x512 : Shape := ⟨3, ![1, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S4x4096x1536, .f32⟩
  | .hbm, ⟨6, _⟩ => ⟨S1x1x1536, .f32⟩
  | .hbm, ⟨7, _⟩ => ⟨S4x4096x1536, .f32⟩
  | .hbm, ⟨8, _⟩ => ⟨S4x4096x1536, .f32⟩
  | .hbm, ⟨9, _⟩ => ⟨S4x4096x3x8x64, .f32⟩
  | .hbm, ⟨10, _⟩ => ⟨S4x4096x1x8x64, .f32⟩
  | .hbm, ⟨11, _⟩ => ⟨S4x4096x8x64, .f32⟩
  | .hbm, ⟨12, _⟩ => ⟨S4x4096x1x8x64, .f32⟩
  | .hbm, ⟨13, _⟩ => ⟨S4x4096x8x64, .f32⟩
  | .hbm, ⟨14, _⟩ => ⟨S4x4096x1x8x64, .f32⟩
  | .hbm, ⟨15, _⟩ => ⟨S4x4096x8x64, .f32⟩
  | .hbm, ⟨16, _⟩ => ⟨S4x4096x8x8, .f32⟩
  | .hbm, ⟨17, _⟩ => ⟨S_, .f32⟩
  | .hbm, ⟨18, _⟩ => ⟨S4x4096x8x8, .f32⟩
  | .hbm, ⟨19, _⟩ => ⟨S4x4096x8x8, .f32⟩
  | .hbm, ⟨20, _⟩ => ⟨S_, .f32⟩
  | .hbm, ⟨21, _⟩ => ⟨S4x4096x8, .f32⟩
  | .hbm, ⟨22, _⟩ => ⟨S_, .f32⟩
  | .hbm, ⟨23, _⟩ => ⟨S4x4096x8, .f32⟩
  | .hbm, ⟨24, _⟩ => ⟨S4x4096x8, .f32⟩
  | .hbm, ⟨25, _⟩ => ⟨S4x4096x8x1, .f32⟩
  | .hbm, ⟨26, _⟩ => ⟨S4x4096x8x8, .f32⟩
  | .hbm, ⟨27, _⟩ => ⟨S4x4096x8x8, .f32⟩
  | .hbm, ⟨28, _⟩ => ⟨S4x4096x8x8, .f32⟩
  | .hbm, ⟨29, _⟩ => ⟨S_, .f32⟩
  | .hbm, ⟨30, _⟩ => ⟨S4x4096x8, .f32⟩
  | .hbm, ⟨31, _⟩ => ⟨S4x4096x8x1, .f32⟩
  | .hbm, ⟨32, _⟩ => ⟨S4x4096x8x8, .f32⟩
  | .hbm, ⟨33, _⟩ => ⟨S4x4096x8x8, .f32⟩
  | .hbm, ⟨34, _⟩ => ⟨S4x4096x8x64, .f32⟩
  | .hbm, ⟨35, _⟩ => ⟨S4x8x4096x64, .f32⟩
  | .hbm, ⟨36, _⟩ => ⟨S4x4096x512, .f32⟩
  | .hbm, ⟨37, _⟩ => ⟨S4x4096x512, .f32⟩
  | .hbm, ⟨38, _⟩ => ⟨S1x1x512, .f32⟩
  | .hbm, ⟨39, _⟩ => ⟨S4x4096x512, .f32⟩
  | .hbm, ⟨40, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S4x4096x1536_0_1_2 : S1x1x1536.BroadcastsInDim S4x4096x1536 (![0, 1, 2] : Fin 3 → Fin S4x4096x1536.rank)
  shapeCasts_S4x4096x1536_S4x4096x3x8x64 : S4x4096x1536.ShapeCasts S4x4096x3x8x64
  slices_S4x4096x3x8x64_S4x4096x1x8x64_0_0_0_0_0 : S4x4096x3x8x64.Slices ![0, 0, 0, 0, 0] S4x4096x1x8x64
  shapeCasts_S4x4096x1x8x64_S4x4096x8x64 : S4x4096x1x8x64.ShapeCasts S4x4096x8x64
  slices_S4x4096x3x8x64_S4x4096x1x8x64_0_0_1_0_0 : S4x4096x3x8x64.Slices ![0, 0, 1, 0, 0] S4x4096x1x8x64
  slices_S4x4096x3x8x64_S4x4096x1x8x64_0_0_2_0_0 : S4x4096x3x8x64.Slices ![0, 0, 2, 0, 0] S4x4096x1x8x64
  bcast_S_S4x4096x8x8 : S_.BroadcastsInDim S4x4096x8x8 (![] : Fin 0 → Fin S4x4096x8x8.rank)
  reducesTo_S4x4096x8x8_S4x4096x8_d3 : S4x4096x8x8.ReducesTo [3] S4x4096x8
  h_S_ : 0 < S_.numel
  bcast_S_S4x4096x8 : S_.BroadcastsInDim S4x4096x8 (![] : Fin 0 → Fin S4x4096x8.rank)
  bcast_S4x4096x8_S4x4096x8x1_0_1_2 : S4x4096x8.BroadcastsInDim S4x4096x8x1 (![0, 1, 2] : Fin 3 → Fin S4x4096x8x1.rank)
  bcast_S4x4096x8x1_S4x4096x8x8_0_1_2_3 : S4x4096x8x1.BroadcastsInDim S4x4096x8x8 (![0, 1, 2, 3] : Fin 4 → Fin S4x4096x8x8.rank)
  transposes_S4x4096x8x64_S4x8x4096x64_0_2_1_3 : S4x4096x8x64.Transposes [0, 2, 1, 3] S4x8x4096x64
  shapeCasts_S4x8x4096x64_S4x4096x512 : S4x8x4096x64.ShapeCasts S4x4096x512
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  dot_S4x4096x512_S1536x512_S4x4096x1536_2_1_01_0_n_n_wf : DotDims.WF S4x4096x512 S1536x512 S4x4096x1536 [2] [1] [0, 1] [0] [] []
  dot_S4x4096x8x64_S4x4096x8x64_S4x4096x8x8_3_3_2_2_01_01_wf : DotDims.WF S4x4096x8x64 S4x4096x8x64 S4x4096x8x8 [3] [3] [2] [2] [0, 1] [0, 1]
  dot_S4x4096x8x8_S4x4096x8x64_S4x4096x8x64_3_2_2_3_01_01_wf : DotDims.WF S4x4096x8x8 S4x4096x8x64 S4x4096x8x64 [3] [2] [2] [3] [0, 1] [0, 1]
  dot_S4x4096x512_S512x512_S4x4096x512_2_1_01_0_n_n_wf : DotDims.WF S4x4096x512 S512x512 S4x4096x512 [2] [1] [0, 1] [0] [] []

variable [Facts₀]

def dot_S4x4096x512_S1536x512_S4x4096x1536_2_1_01_0_n_n : DotDims S4x4096x512 S1536x512 S4x4096x1536 where
  lhsContracting := [2]
  rhsContracting := [1]
  lhsNonContracting := [0, 1]
  rhsNonContracting := [0]
  lhsBatch := []
  rhsBatch := []
  wf := dot_S4x4096x512_S1536x512_S4x4096x1536_2_1_01_0_n_n_wf
def dot_S4x4096x8x64_S4x4096x8x64_S4x4096x8x8_3_3_2_2_01_01 : DotDims S4x4096x8x64 S4x4096x8x64 S4x4096x8x8 where
  lhsContracting := [3]
  rhsContracting := [3]
  lhsNonContracting := [2]
  rhsNonContracting := [2]
  lhsBatch := [0, 1]
  rhsBatch := [0, 1]
  wf := dot_S4x4096x8x64_S4x4096x8x64_S4x4096x8x8_3_3_2_2_01_01_wf
def dot_S4x4096x8x8_S4x4096x8x64_S4x4096x8x64_3_2_2_3_01_01 : DotDims S4x4096x8x8 S4x4096x8x64 S4x4096x8x64 where
  lhsContracting := [3]
  rhsContracting := [2]
  lhsNonContracting := [2]
  rhsNonContracting := [3]
  lhsBatch := [0, 1]
  rhsBatch := [0, 1]
  wf := dot_S4x4096x8x8_S4x4096x8x64_S4x4096x8x64_3_2_2_3_01_01_wf
def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf

class Facts : Prop extends Facts₀ where

variable [Facts]
-- ==== Proof.KernelRun.lean ====
/-
  The kernel's run as a whole: two pipelined regions among stretches of host operations. The first theorem is the
  run with the result array named; the others say what the result array is in terms of the second region's output,
  and what each region finds in its input arrays when it is entered.
-/
import proofs.«148005_j45561013076014_2_alg».proof.Proof.Gen.KernelIdeal.Frame
import Idealize.ShloMosaic.Lib.StableHlo.Run
import Idealize.ShloMosaic.Lib.Pipeline.Value

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array named: from any memory with zero counters every weakly fair execution terminates,
    and in every final state the result array holds the last boundary's contents and the five arguments are as launched. -/
theorem run_value : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

/-- The result array is the second region's output array, read as [4, 4096, 512]. -/
theorem result_eq (c : Dev nD) :
    W5 m ρ c (Proc.devRef .tc main_v8)
      = shapeCast S4x4096x512 ((dat1 (V3 m ρ) c).arrAt 3 cfg1.N) shapeCasts_S16384x512_S4x4096x512 := by
  show StableHlo.after hostOps2 (W4 m ρ c) (Proc.devRef .tc main_v8) = _
  after_results
  rw [show W4 m ρ c (Proc.devRef .tc main_v7) = (dat1 (V3 m ρ) c).arrAt 3 cfg1.N from W4_arr m ρ c 3]
  rfl

/-- The second region's first input is the first region's output array, read as [16384, 512]. -/
theorem entry1_v6 (c : Dev nD) :
    V3 m ρ c main_v6
      = shapeCast S16384x512 ((dat0 (V1 m ρ) c).arrAt 3 cfg0.N) shapeCasts_S4x8x512x512_S16384x512 := by
  show StableHlo.after hostOps1 (W2 m ρ c) (Proc.devRef .tc main_v6) = _
  after_results
  rw [show W2 m ρ c (Proc.devRef .tc main_v5) = (dat0 (V1 m ρ) c).arrAt 3 cfg0.N from W2_arr m ρ c 3]
  rfl

/-- The second region's weight is the fourth argument transposed and narrowed to bf16: no later operation and
    no region writes it. -/
theorem entry1_v4 (c : Dev nD) :
    V3 m ρ c main_v4
      = truncf .bf16 (transpose S512x512 [1, 0] (m ((c : Thread nD τ).loc main_arg3)) transposes_S512x512_S512x512_1_0) bitsLt_bf16_f32 :=
  calc V3 m ρ c main_v4
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := W2_of_ne m ρ c main_v4 (by decide)
    _ = _ := by
      show StableHlo.after hostOps0 (W0 m ρ c) (Proc.devRef .tc main_v4) = _
      after_results

/-- The second region's bias is the fifth argument as launched. -/
theorem entry1_arg4 (c : Dev nD) : V3 m ρ c main_arg4 = m ((c : Thread nD τ).loc main_arg4) :=
  calc V3 m ρ c main_arg4
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The first region's input rows are the first argument, read as [16384, 512]. -/
theorem entry0_v0 (c : Dev nD) :
    V1 m ρ c main_v0 = shapeCast S16384x512 (m ((c : Thread nD τ).loc main_arg0)) shapeCasts_S4x4096x512_S16384x512 := by
  show StableHlo.after hostOps0 (W0 m ρ c) (Proc.devRef .tc main_v0) = _
  after_results
  rfl

/-- The first region's weight is the second argument transposed and narrowed to bf16. -/
theorem entry0_v2 (c : Dev nD) :
    V1 m ρ c main_v2
      = truncf .bf16 (transpose S512x1536 [1, 0] (m ((c : Thread nD τ).loc main_arg1)) transposes_S1536x512_S512x1536_1_0) bitsLt_bf16_f32 := by
  show StableHlo.after hostOps0 (W0 m ρ c) (Proc.devRef .tc main_v2) = _
  after_results

/-- The first region's bias is the third argument as launched. -/
theorem entry0_arg2 (c : Dev nD) : V1 m ρ c main_arg2 = m ((c : Thread nD τ).loc main_arg2) :=
  calc V1 m ρ c main_arg2
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

end Cert.KernelIdeal.KRun

end
-- ==== Proof.Spec.lean ====
/-
  The mathematics both programs compute, over the extended reals.

  A token (batch b, position n) has 512 input features. Its 1536 projected features are
    proj b n o = (sum over c of x[b,n,c] * w[o,c]) + bias[o],
  read as three parts (query, key, value) of 8 heads with 64 lanes each: feature s*512 + h*64 + d.
  Attention runs ACROSS THE HEADS of one token: head h scores head g by
    score h g = (sum over d of q[h,d] * k[g,d]) * (1/8),
  the scores of a head are turned into weights by the softmax
    weight h g = exp (score h g - max over g' of score h g'),   norm h = sum over g of weight h g,
  and head h's output lane d is the weighted mix of the value parts,
    headOut h d = sum over g of (weight h g / norm h) * v[g,d].
  The outputs are then re-laid: row n2 of batch b takes head n2 / 512 of the eight tokens
  8 * (n2 % 512) .. 8 * (n2 % 512) + 7, lane c % 64 of token 8 * (n2 % 512) + c / 64 at column c,
  and the result is the second projection
    result b n o = (sum over c of mixed[b,n,c] * w'[o,c]) + bias'[o].
-/
import Idealize.ShloMosaic.PureOps.Ideal
import Idealize.ShloMosaic.Lib.ValueIdx

noncomputable section

namespace Cert.Attn

open Idealize.ShloMosaic Idealize.ShloMosaic.ValueIdx

/-- Feature `s * 512 + h * 64 + d` of a token's 1536: part `s` (0 query, 1 key, 2 value), head `h`, lane `d`. -/
def feat (s : Fin 3) (h : Fin 8) (d : Fin 64) : Fin 1536 :=
  ⟨s.val * 512 + h.val * 64 + d.val, by have := s.isLt; have := h.isLt; have := d.isLt; omega⟩

/-- The scale 1/8 (= 64 ^ (-1/2)), as the float word both programs carry. -/
def scale : EReal := Ideal.ofBits .f32 0x3E000000#32

/-- The word of minus infinity, from which both programs start a row's maximum. -/
def negInf : EReal := Ideal.ofBits .f32 0xFF800000#32

/-- Head `h`'s score of head `g`: the scaled inner product of `h`'s query lanes with `g`'s key lanes. -/
def score (P : Fin 1536 → EReal) (h g : Fin 8) : EReal :=
  (∑ d : Fin 64, P (feat 0 h d) * P (feat 1 g d)) * scale

/-- The largest score of head `h`. -/
def rowMax (P : Fin 1536 → EReal) (h : Fin 8) : EReal :=
  (Finset.univ : Finset (Fin 8)).fold max negInf (score P h)

/-- The softmax numerator. -/
def weight (P : Fin 1536 → EReal) (h g : Fin 8) : EReal :=
  Ideal.exp (score P h g - rowMax P h)

/-- The softmax denominator. -/
def norm (P : Fin 1536 → EReal) (h : Fin 8) : EReal := ∑ g : Fin 8, weight P h g

/-- Lane `d` of head `h`'s output: the value lanes of the eight heads mixed by the softmax weights. -/
def headOut (P : Fin 1536 → EReal) (h : Fin 8) (d : Fin 64) : EReal :=
  ∑ g : Fin 8, Ideal.div (weight P h g) (norm P h) * P (feat 2 g d)

/-- The first projection: feature `o` of token `(b, n)`. -/
def proj (x : (⟨3, ![4, 4096, 512]⟩ : Shape).Idx → EReal) (w : (⟨2, ![1536, 512]⟩ : Shape).Idx → EReal)
    (bias : (⟨1, ![1536]⟩ : Shape).Idx → EReal) (b : Fin 4) (n : Fin 4096) (o : Fin 1536) : EReal :=
  (∑ c : Fin 512, x (ix3 b n c) * w (ix2 o c)) + bias (ix1 o)

/-- The token whose output lands at row `n`, column `c` of the re-laid array. -/
def tokenOf (n : Fin 4096) (c : Fin 512) : Fin 4096 :=
  ⟨8 * (n.val % 512) + c.val / 64, by have := n.isLt; have := c.isLt; omega⟩

/-- The head whose outputs fill row `n` of the re-laid array. -/
def headOf (n : Fin 4096) : Fin 8 := ⟨n.val / 512, by have := n.isLt; omega⟩

/-- The lane at column `c`. -/
def laneOf (c : Fin 512) : Fin 64 := ⟨c.val % 64, by have := c.isLt; omega⟩

/-- The re-laid attention output. -/
def mixed (x : (⟨3, ![4, 4096, 512]⟩ : Shape).Idx → EReal) (w : (⟨2, ![1536, 512]⟩ : Shape).Idx → EReal)
    (bias : (⟨1, ![1536]⟩ : Shape).Idx → EReal) (b : Fin 4) (n : Fin 4096) (c : Fin 512) : EReal :=
  headOut (proj x w bias b (tokenOf n c)) (headOf n) (laneOf c)

/-- The result at batch `b`, position `n`, output feature `o`. -/
def resultAt (x : (⟨3, ![4, 4096, 512]⟩ : Shape).Idx → EReal) (w : (⟨2, ![1536, 512]⟩ : Shape).Idx → EReal)
    (bias : (⟨1, ![1536]⟩ : Shape).Idx → EReal) (w' : (⟨2, ![512, 512]⟩ : Shape).Idx → EReal)
    (bias' : (⟨1, ![512]⟩ : Shape).Idx → EReal) (b : Fin 4) (n : Fin 4096) (o : Fin 512) : EReal :=
  (∑ c : Fin 512, mixed x w bias b n c * w' (ix2 o c)) + bias' (ix1 o)

/-- The whole result array. -/
def result (x : (⟨3, ![4, 4096, 512]⟩ : Shape).Idx → EReal) (w : (⟨2, ![1536, 512]⟩ : Shape).Idx → EReal)
    (bias : (⟨1, ![1536]⟩ : Shape).Idx → EReal) (w' : (⟨2, ![512, 512]⟩ : Shape).Idx → EReal)
    (bias' : (⟨1, ![512]⟩ : Shape).Idx → EReal) : (⟨3, ![4, 4096, 512]⟩ : Shape).Idx → EReal :=
  fun i => resultAt x w bias w' bias' (i 0) (i 1) (i 2)

/-- The word of minus infinity is the bottom of the extended reals. -/
theorem negInf_eq_bot : negInf = ⊥ := by
  simp [negInf, Ideal.ofBits, Ideal.ieee]

/-- Starting a row's maximum from minus infinity once more changes nothing. -/
theorem max_negInf_rowMax (P : Fin 1536 → EReal) (h : Fin 8) : max negInf (rowMax P h) = rowMax P h :=
  max_eq_right (by rw [negInf_eq_bot]; exact bot_le)

end Cert.Attn

end
-- ==== Proof.Head.lean ====
import proofs.«148005_j45561013076014_2_alg».proof.Proof.Gen.KernelIdeal.Skeleton
import proofs.«148005_j45561013076014_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Head

open Idealize.ShloMosaic Idealize.ShloMosaic.TcCoe Idealize.ShloMosaic.ValueIdx Cert.KernelIdeal Cert.KernelIdeal.Gen

/-! ## One head of the attention body, in three stages over vectors

  The body treats the 512 tokens of a block at once: `qh` holds one head's query lanes of every token
  ([512, 1, 64]), `k` and `v` the eight heads' key and value lanes ([512, 8, 64]). -/

/-- The scaled scores of the head against the eight heads' keys, token by token: [512, 8]. -/
def scoresV (qh : FVec Ideal S512x1x64 .f32) (k : FVec Ideal S512x8x64 .f32) : FVec Ideal S512x8 .f32 :=
  mulf (multiReduction .add [2] S512x8 (mulf (broadcastTo S512x8x64 qh broadcasts_S512x1x64_S512x8x64) k) 0x00000000#32
      reduces_S512x8x64_S512x8 (.inl rfl) rfl)
    (broadcast S512x8 (Scalar.ofBits .f32 0x3E000000#32))

/-- The softmax numerators: the exponential of each score less its row's maximum. -/
def expoV (s : FVec Ideal S512x8 .f32) : FVec Ideal S512x8 .f32 :=
  exp (subf s (broadcastTo S512x8 (shapeCast S512x1 (multiReduction .maximumf [1] S512 s 0xFF800000#32 reduces_S512x8_S512 (.inl rfl) rfl)
    shapeCasts_S512_S512x1) broadcasts_S512x1_S512x8))

/-- The softmax of each row of scores. -/
def softmaxV (s : FVec Ideal S512x8 .f32) : FVec Ideal S512x8 .f32 :=
  divf (expoV s) (broadcastTo S512x8 (shapeCast S512x1 (multiReduction .add [1] S512 (expoV s) 0x00000000#32 reduces_S512x8_S512 (.inl rfl) rfl)
    shapeCasts_S512_S512x1) broadcasts_S512x1_S512x8)

/-- The value lanes mixed by the weights `a` ([512, 64]), re-laid row-major as [64, 512] and stored as one
    [1, 1, 64, 512] piece. -/
def mixV (a : FVec Ideal S512x8 .f32) (v : FVec Ideal S512x8x64 .f32) : FVec Ideal S1x1x64x512 .bf16 :=
  shapeCast S1x1x64x512 (truncf .bf16 (shapeCast S64x512 (multiReduction .add [1] S512x64
      (mulf (broadcastTo S512x8x64 (shapeCast S512x8x1 a shapeCasts_S512x8_S512x8x1) broadcasts_S512x8x1_S512x8x64) v) 0x00000000#32
      reduces_S512x8x64_S512x64 (.inl rfl) rfl) shapeCasts_S512x64_S64x512) bitsLt_bf16_f32) shapeCasts_S64x512_S1x1x64x512

/-- A score is the scaled inner product over the 64 lanes. -/
theorem scoresV_apply (qh : FVec Ideal S512x1x64 .f32) (k : FVec Ideal S512x8x64 .f32) (n : Fin 512) (g : Fin 8) :
    scoresV qh k (ix2 n g) = (∑ d : Fin 64, qh (ix3 n (0 : Fin 1) d) * k (ix3 n g d)) * Cert.Attn.scale := by
  unfold scoresV
  rw [mulf_apply, broadcast_apply]
  refine congrArg₂ (· * ·) ?_ rfl
  refine (Ideal.multiReduction_add_single _ 0x00000000#32 reduces_S512x8x64_S512x8 (.inl rfl) rfl (ix2 n g)).trans ?_
  refine Finset.sum_congr rfl fun (d : Fin 64) _ => ?_
  have hl : reduces_S512x8x64_S512x8.lift (ix2 n g) d = ix3 n g d :=
    funext fun a => Fin.ext (by match a with | ⟨0, _⟩ => rfl | ⟨1, _⟩ => rfl | ⟨2, _⟩ => rfl)
  rw [hl, mulf_apply]
  refine congrArg₂ (· * ·) ?_ rfl
  exact broadcastTo_apply qh broadcasts_S512x1x64_S512x8x64 (ix3 n g d) (ix3 n (0 : Fin 1) d) (fun a => match a with
    | ⟨0, _⟩ => by show n.val = if (512 : Nat) = 1 then 0 else n.val; rw [if_neg (by decide)]
    | ⟨1, _⟩ => by show 0 = if (1 : Nat) = 1 then 0 else g.val; rw [if_pos rfl]
    | ⟨2, _⟩ => by show d.val = if (64 : Nat) = 1 then 0 else d.val; rw [if_neg (by decide)])

/-- A vector [512] viewed as a column [512, 1] and spread along rows of 8 reads its entry `n` at `(n, g)`. -/
theorem column_apply (z : FVec Ideal S512 .f32) (n : Fin 512) (g : Fin 8) :
    broadcastTo S512x8 (shapeCast S512x1 z shapeCasts_S512_S512x1) broadcasts_S512x1_S512x8 (ix2 n g) = z (ix1 n) := by
  refine (broadcastTo_apply _ broadcasts_S512x1_S512x8 (ix2 n g) (ix2 n (0 : Fin 1)) (fun a => match a with
    | ⟨0, _⟩ => by show n.val = if (512 : Nat) = 1 then 0 else n.val; rw [if_neg (by decide)]
    | ⟨1, _⟩ => by show 0 = if (1 : Nat) = 1 then 0 else g.val; rw [if_pos rfl])).trans ?_
  exact shapeCast_apply z shapeCasts_S512_S512x1 (ix2 n (0 : Fin 1)) (ix1 n)
    (by rw [Shape.rowMajor_val_one, Shape.rowMajor_val_two]; show n.val = n.val * 1 + 0; omega)

/-- A numerator is the exponential of the score less the largest score of its row. -/
theorem expoV_apply (s : FVec Ideal S512x8 .f32) (n : Fin 512) (g : Fin 8) :
    expoV s (ix2 n g) = Ideal.exp (s (ix2 n g) - (Finset.univ : Finset (Fin 8)).fold max Cert.Attn.negInf (fun g' => s (ix2 n g'))) := by
  unfold expoV
  show Ideal.exp (subf s _ (ix2 n g)) = _
  rw [subf_apply, column_apply]
  refine congrArg (fun z => Ideal.exp (s (ix2 n g) - z)) ?_
  refine (Ideal.multiReduction_maximumf_single s 0xFF800000#32 reduces_S512x8_S512 (.inl rfl) rfl (ix1 n)).trans ?_
  refine congrArg (fun f => (Finset.univ : Finset (Fin 8)).fold max Cert.Attn.negInf f) ?_
  funext g'
  show s (reduces_S512x8_S512.lift (ix1 n) g') = s (ix2 n g')
  exact congrArg s (funext fun a => Fin.ext (by match a with | ⟨0, _⟩ => rfl | ⟨1, _⟩ => rfl))

/-- A softmax weight is its numerator over the sum of its row's numerators. -/
theorem softmaxV_apply (s : FVec Ideal S512x8 .f32) (n : Fin 512) (g : Fin 8) :
    softmaxV s (ix2 n g) = Ideal.div (expoV s (ix2 n g)) (∑ g' : Fin 8, expoV s (ix2 n g')) := by
  unfold softmaxV
  rw [divf_apply, column_apply]
  refine congrArg (Ideal.div _) ?_
  refine (Ideal.multiReduction_add_single (expoV s) 0x00000000#32 reduces_S512x8_S512 (.inl rfl) rfl (ix1 n)).trans ?_
  refine Finset.sum_congr rfl fun (g' : Fin 8) _ => ?_
  exact congrArg (expoV s) (funext fun a => Fin.ext (by match a with | ⟨0, _⟩ => rfl | ⟨1, _⟩ => rfl))

/-- Row `r`, column `cc` of the stored piece is lane `cc % 64` of token `8 r + cc / 64`: the weighted sum
    of the eight heads' value lanes. -/
theorem mixV_apply (a : FVec Ideal S512x8 .f32) (v : FVec Ideal S512x8x64 .f32) (r : Fin 64) (cc : Fin 512)
    (n : Fin 512) (d : Fin 64) (hn : n.val = 8 * r.val + cc.val / 64) (hd : d.val = cc.val % 64) :
    mixV a v (ix4 (0 : Fin 1) (0 : Fin 1) r cc) = ∑ g : Fin 8, a (ix2 n g) * v (ix3 n g d) := by
  unfold mixV
  refine (shapeCast_apply _ shapeCasts_S64x512_S1x1x64x512 (ix4 (0 : Fin 1) (0 : Fin 1) r cc) (ix2 r cc)
    (by rw [Shape.rowMajor_val_two, Shape.rowMajor_val_four]; show r.val * 512 + cc.val = ((0 * 1 + 0) * 64 + r.val) * 512 + cc.val; omega)).trans ?_
  rw [truncf_apply]
  refine (shapeCast_apply _ shapeCasts_S512x64_S64x512 (ix2 r cc) (ix2 n d)
    (by rw [Shape.rowMajor_val_two, Shape.rowMajor_val_two]; show n.val * 64 + d.val = r.val * 512 + cc.val
        have := cc.isLt; omega)).trans ?_
  refine (Ideal.multiReduction_add_single _ 0x00000000#32 reduces_S512x8x64_S512x64 (.inl rfl) rfl (ix2 n d)).trans ?_
  refine Finset.sum_congr rfl fun (g : Fin 8) _ => ?_
  have hl : reduces_S512x8x64_S512x64.lift (ix2 n d) g = ix3 n g d :=
    funext fun a => Fin.ext (by match a with | ⟨0, _⟩ => rfl | ⟨1, _⟩ => rfl | ⟨2, _⟩ => rfl)
  rw [hl, mulf_apply]
  refine congrArg₂ (· * ·) ?_ rfl
  refine (broadcastTo_apply _ broadcasts_S512x8x1_S512x8x64 (ix3 n g d) (ix3 n g (0 : Fin 1)) (fun b => match b with
    | ⟨0, _⟩ => by show n.val = if (512 : Nat) = 1 then 0 else n.val; rw [if_neg (by decide)]
    | ⟨1, _⟩ => by show g.val = if (8 : Nat) = 1 then 0 else g.val; rw [if_neg (by decide)]
    | ⟨2, _⟩ => by show 0 = if (1 : Nat) = 1 then 0 else d.val; rw [if_pos rfl])).trans ?_
  exact shapeCast_apply a shapeCasts_S512x8_S512x8x1 (ix3 n g (0 : Fin 1)) (ix2 n g)
    (by rw [Shape.rowMajor_val_two, Shape.rowMajor_val_three]; show n.val * 8 + g.val = (n.val * 8 + g.val) * 1 + 0; omega)

end Cert.KernelIdeal.Head

end
-- ==== Proof.Body0.lean ====
import proofs.«148005_j45561013076014_2_alg».proof.Proof.Head

set_option maxRecDepth 16384

noncomputable section

namespace Cert.KernelIdeal.Body0

open Idealize.ShloMosaic Idealize.ShloMosaic.TcCoe Idealize.ShloMosaic.ValueIdx Cert.KernelIdeal Cert.KernelIdeal.Gen Cert.KernelIdeal.Head

/-! ## The first projection of a block of 512 tokens -/

theorem d0_lhs0 (i : S512x1536.Idx) (q : dot_S512x512_S512x1536_S512x1536_1_0_0_1_n_n.contr.Idx) : (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide),
    dif_pos (show (0 : Fin S512x512.rank) ∈ dot_S512x512_S512x1536_S512x1536_1_0_0_1_n_n.lhsNonContracting by decide)]
  rfl
theorem d0_lhs1 (i : S512x1536.Idx) (q : dot_S512x512_S512x1536_S512x1536_1_0_0_1_n_n.contr.Idx) : (dot_S512x512_S512x1536_S512x1536_1_0_0_1_n_n.lhsIdx i q 1).val = (q ⟨0, by decide⟩).val :=
  dot_S512x512_S512x1536_S512x1536_1_0_0_1_n_n.lhsIdx_val_of_single rfl i q
theorem d0_rhs0 (i : S512x1536.Idx) (q : dot_S512x512_S512x1536_S512x1536_1_0_0_1_n_n.contr.Idx) : (dot_S512x512_S512x1536_S512x1536_1_0_0_1_n_n.rhsIdx i q 0).val = (q ⟨0, by decide⟩).val :=
  dot_S512x512_S512x1536_S512x1536_1_0_0_1_n_n.rhsIdx_val_of_single rfl i q
theorem d0_rhs1 (i : S512x1536.Idx) (q : dot_S512x512_S512x1536_S512x1536_1_0_0_1_n_n.contr.Idx) : (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide),
    dif_pos (show (1 : Fin S512x1536.rank) ∈ dot_S512x512_S512x1536_S512x1536_1_0_0_1_n_n.rhsNonContracting by decide)]
  rfl

/-- The 1536 projected features of token `n` of a block: the block's row `n` times the transposed weights, plus
    the bias. -/
def tokenFeat (x0 : FVec Ideal S512x512 .f32) (x1 : FVec Ideal S512x1536 .bf16) (x2 : FVec Ideal S1536 .f32) (n : Fin 512) :
    Fin 1536 → EReal :=
  fun o => (∑ k : Fin 512, x0 (ix2 n k) * x1 (ix2 k o)) + x2 (ix1 o)

/-- The projection's payload at token `n`, feature `o`. -/
theorem proj_apply (x0 : FVec Ideal S512x512 .f32) (x1 : FVec Ideal S512x1536 .bf16) (x2 : FVec Ideal S1536 .f32)
    (n : Fin 512) (o : Fin 1536) :
    k0_pay3 (F := Ideal) x0 x1 x2 (ix2 n o) = tokenFeat x0 x1 x2 n o := by
  unfold k0_pay3 tokenFeat
  rw [addf_apply, shapeCast_self, shapeCast_self]
  refine congrArg₂ (· + ·) ?_ ?_
  · simp only [matmul]
    rw [Ideal.matmul_constant_zero_apply, ← Equiv.sum_comp (contrEquiv1 dot_S512x512_S512x1536_S512x1536_1_0_0_1_n_n 512 rfl rfl).symm]
    refine Finset.sum_congr rfl fun k _ => ?_
    have hk := contrEquiv1_symm_val dot_S512x512_S512x1536_S512x1536_1_0_0_1_n_n 512 rfl rfl k
    have el : dot_S512x512_S512x1536_S512x1536_1_0_0_1_n_n.lhsIdx (ix2 n o) ((contrEquiv1 dot_S512x512_S512x1536_S512x1536_1_0_0_1_n_n 512 rfl rfl).symm k) = ix2 n k :=
      funext fun a => Fin.ext (by
        match a with
        | ⟨0, _⟩ => exact d0_lhs0 _ _
        | ⟨1, _⟩ => exact (d0_lhs1 _ _).trans hk)
    have er : dot_S512x512_S512x1536_S512x1536_1_0_0_1_n_n.rhsIdx (ix2 n o) ((contrEquiv1 dot_S512x512_S512x1536_S512x1536_1_0_0_1_n_n 512 rfl rfl).symm k) = ix2 k o :=
      funext fun a => Fin.ext (by
        match a with
        | ⟨0, _⟩ => exact (d0_rhs0 _ _).trans hk
        | ⟨1, _⟩ => exact d0_rhs1 _ _)
    rw [el, er]
    rfl
  · refine (broadcastTo_apply _ broadcasts_S1x1536_S512x1536 (ix2 n o) (ix2 (0 : Fin 1) o) (fun a => ?_)).trans ?_
    · match a with
      | ⟨0, _⟩ => show 0 = if (1 : Nat) = 1 then 0 else _; rw [if_pos rfl]
      | ⟨1, _⟩ => show o.val = if (1536 : Nat) = 1 then 0 else o.val; rw [if_neg (by decide)]
    · exact shapeCast_apply x2 shapeCasts_S1536_S1x1536 (ix2 (0 : Fin 1) o) (ix1 o)
        (by rw [Shape.rowMajor_val_one, Shape.rowMajor_val_two]; show o.val = 0 * 1536 + o.val; omega)

/-- Columns `off .. off + 511` of the projection viewed as 8 heads of 64 lanes: head `h`, lane `d` of token `n` is
    feature `off + 64 h + d`. -/
theorem part_apply (y : FVec Ideal S512x1536 .f32) (off : Nat) (hs : S512x1536.Slices ![0, off] S512x512)
    (n : Fin 512) (h : Fin 8) (d : Fin 64) (o : Fin 1536) (ho : o.val = off + h.val * 64 + d.val) :
    shapeCast S512x8x64 (extractStridedSlice S512x512 ![0, off] y hs) shapeCasts_S512x512_S512x8x64 (ix3 n h d) = y (ix2 n o) := by
  have hd := d.isLt
  refine (shapeCast_apply _ shapeCasts_S512x512_S512x8x64 (ix3 n h d) (ix2 n (⟨h.val * 64 + d.val, by have := h.isLt; omega⟩ : Fin 512))
    (by rw [Shape.rowMajor_val_two, Shape.rowMajor_val_three]
        show n.val * 512 + (h.val * 64 + d.val) = (n.val * 8 + h.val) * 64 + d.val; omega)).trans ?_
  exact extractStridedSlice_apply ![0, off] y hs _ (ix2 n o) (fun a => match a with
    | ⟨0, _⟩ => by show n.val = 0 + n.val; omega
    | ⟨1, _⟩ => by show o.val = off + (h.val * 64 + d.val); omega)

theorem query_apply (x0 : FVec Ideal S512x512 .f32) (x1 : FVec Ideal S512x1536 .bf16) (x2 : FVec Ideal S1536 .f32)
    (n : Fin 512) (h : Fin 8) (d : Fin 64) :
    k0_pay4 (F := Ideal) x0 x1 x2 (ix3 n h d) = tokenFeat x0 x1 x2 n (Cert.Attn.feat 0 h d) := by
  unfold k0_pay4
  rw [part_apply _ 0 _ n h d (Cert.Attn.feat 0 h d) (by show (0 : Fin 3).val * 512 + h.val * 64 + d.val = 0 + h.val * 64 + d.val; simp)]
  exact proj_apply x0 x1 x2 n _

theorem key_apply (x0 : FVec Ideal S512x512 .f32) (x1 : FVec Ideal S512x1536 .bf16) (x2 : FVec Ideal S1536 .f32)
    (n : Fin 512) (h : Fin 8) (d : Fin 64) :
    k0_pay5 (F := Ideal) x0 x1 x2 (ix3 n h d) = tokenFeat x0 x1 x2 n (Cert.Attn.feat 1 h d) := by
  unfold k0_pay5
  rw [part_apply _ 512 _ n h d (Cert.Attn.feat 1 h d) (by show (1 : Fin 3).val * 512 + h.val * 64 + d.val = 512 + h.val * 64 + d.val; simp)]
  exact proj_apply x0 x1 x2 n _

theorem value_apply (x0 : FVec Ideal S512x512 .f32) (x1 : FVec Ideal S512x1536 .bf16) (x2 : FVec Ideal S1536 .f32)
    (n : Fin 512) (h : Fin 8) (d : Fin 64) :
    k0_pay6 (F := Ideal) x0 x1 x2 (ix3 n h d) = tokenFeat x0 x1 x2 n (Cert.Attn.feat 2 h d) := by
  unfold k0_pay6
  rw [part_apply _ 1024 _ n h d (Cert.Attn.feat 2 h d) (by show (2 : Fin 3).val * 512 + h.val * 64 + d.val = 1024 + h.val * 64 + d.val; simp)]
  exact proj_apply x0 x1 x2 n _

/-- One head's lanes cut out of the eight: lane `d` of token `n` of the cut is lane `d` of head `o`. -/
theorem headSlice_apply (q : FVec Ideal S512x8x64 .f32) (o : Nat) (ho : o < 8) (hs : S512x8x64.Slices ![0, o, 0] S512x1x64)
    (n : Fin 512) (d : Fin 64) :
    extractStridedSlice S512x1x64 ![0, o, 0] q hs (ix3 n (0 : Fin 1) d) = q (ix3 n (⟨o, ho⟩ : Fin 8) d) :=
  extractStridedSlice_apply ![0, o, 0] q hs _ _ (fun a => match a with
    | ⟨0, _⟩ => by show n.val = 0 + n.val; omega
    | ⟨1, _⟩ => by show o = o + 0; omega
    | ⟨2, _⟩ => by show d.val = 0 + d.val; omega)

/-! ## One stored piece of a block is the specification's head output -/

/-- Over the three parts of the projection of a block, head `o`'s piece at row `r`, column `cc` is the
    specification's output of that head for token `8 r + cc / 64`, lane `cc % 64`. -/
theorem piece_apply (x0 : FVec Ideal S512x512 .f32) (x1 : FVec Ideal S512x1536 .bf16) (x2 : FVec Ideal S1536 .f32)
    (o : Nat) (ho : o < 8) (hs : S512x8x64.Slices ![0, o, 0] S512x1x64) (r : Fin 64) (cc : Fin 512)
    (n : Fin 512) (d : Fin 64) (hn : n.val = 8 * r.val + cc.val / 64) (hd : d.val = cc.val % 64) :
    mixV (softmaxV (scoresV (extractStridedSlice S512x1x64 ![0, o, 0] (k0_pay4 (F := Ideal) x0 x1 x2) hs) (k0_pay5 (F := Ideal) x0 x1 x2)))
        (k0_pay6 (F := Ideal) x0 x1 x2) (ix4 (0 : Fin 1) (0 : Fin 1) r cc)
      = Cert.Attn.headOut (tokenFeat x0 x1 x2 n) ⟨o, ho⟩ d := by
  have hscore : ∀ g : Fin 8, scoresV (extractStridedSlice S512x1x64 ![0, o, 0] (k0_pay4 (F := Ideal) x0 x1 x2) hs) (k0_pay5 (F := Ideal) x0 x1 x2) (ix2 n g)
      = Cert.Attn.score (tokenFeat x0 x1 x2 n) ⟨o, ho⟩ g := fun g => by
    rw [scoresV_apply]
    unfold Cert.Attn.score
    refine congrArg (· * Cert.Attn.scale) (Finset.sum_congr rfl fun d' _ => ?_)
    rw [headSlice_apply _ o ho hs n d', query_apply, key_apply]
  have hweight : ∀ g : Fin 8, expoV (scoresV (extractStridedSlice S512x1x64 ![0, o, 0] (k0_pay4 (F := Ideal) x0 x1 x2) hs) (k0_pay5 (F := Ideal) x0 x1 x2)) (ix2 n g)
      = Cert.Attn.weight (tokenFeat x0 x1 x2 n) ⟨o, ho⟩ g := fun g => by
    rw [expoV_apply, hscore g]
    unfold Cert.Attn.weight Cert.Attn.rowMax
    refine congrArg (fun z => Ideal.exp (_ - z)) (congrArg (fun f => (Finset.univ : Finset (Fin 8)).fold max Cert.Attn.negInf f) ?_)
    funext g'
    exact hscore g'
  rw [mixV_apply _ _ r cc n d hn hd]
  unfold Cert.Attn.headOut
  refine Finset.sum_congr rfl fun g _ => ?_
  rw [softmaxV_apply, value_apply, hweight g]
  unfold Cert.Attn.norm
  refine congrArg (fun z => Ideal.div _ z * _) (Finset.sum_congr rfl fun g' _ => hweight g')

end Cert.KernelIdeal.Body0

end
-- ==== Proof.Block0.lean ====
import proofs.«148005_j45561013076014_2_alg».proof.Proof.Body0
import proofs.«148005_j45561013076014_2_alg».proof.Proof.Gen.KernelIdeal.Frame

set_option maxRecDepth 16384

noncomputable section

namespace Cert.KernelIdeal.Block0

open Idealize.ShloMosaic Idealize.ShloMosaic.TcCoe Idealize.ShloMosaic.ValueIdx Cert.KernelIdeal Cert.KernelIdeal.Gen Cert.KernelIdeal.Head Cert.KernelIdeal.Body0

theorem pc7 (q k v : FVec Ideal S512x8x64 .f32) :
    k0_pay2 (F := Ideal) q k v = mixV (softmaxV (scoresV (extractStridedSlice S512x1x64 ![0, 7, 0] q slices_S512x8x64_o0_7_0_S512x1x64) k)) v := rfl
theorem pc6 (q k v : FVec Ideal S512x8x64 .f32) :
    k0_pay1 (F := Ideal) v (k0_pay16 q k) = mixV (softmaxV (scoresV (extractStridedSlice S512x1x64 ![0, 6, 0] q slices_S512x8x64_o0_6_0_S512x1x64) k)) v := rfl
theorem pc5 (q k v : FVec Ideal S512x8x64 .f32) :
    k0_pay15 (F := Ideal) q k v = mixV (softmaxV (scoresV (extractStridedSlice S512x1x64 ![0, 5, 0] q slices_S512x8x64_o0_5_0_S512x1x64) k)) v := rfl
theorem pc4 (q k v : FVec Ideal S512x8x64 .f32) :
    k0_pay14 (F := Ideal) v (k0_pay13 q k) = mixV (softmaxV (scoresV (extractStridedSlice S512x1x64 ![0, 4, 0] q slices_S512x8x64_o0_4_0_S512x1x64) k)) v := rfl
theorem pc3 (q k v : FVec Ideal S512x8x64 .f32) :
    k0_pay12 (F := Ideal) q k v = mixV (softmaxV (scoresV (extractStridedSlice S512x1x64 ![0, 3, 0] q slices_S512x8x64_o0_3_0_S512x1x64) k)) v := rfl
theorem pc2 (q k v : FVec Ideal S512x8x64 .f32) :
    k0_pay11 (F := Ideal) (k0_pay10 q k v) = mixV (softmaxV (scoresV (extractStridedSlice S512x1x64 ![0, 2, 0] q slices_S512x8x64_o0_2_0_S512x1x64) k)) v := rfl
theorem pc1 (x0 : FVec Ideal S512x512 .f32) (x1 : FVec Ideal S512x1536 .bf16) (x2 : FVec Ideal S1536 .f32) :
    k0_pay9 (F := Ideal) (k0_pay6 x0 x1 x2) (k0_pay8 x0 x1 x2)
      = mixV (softmaxV (scoresV (extractStridedSlice S512x1x64 ![0, 1, 0] (k0_pay4 (F := Ideal) x0 x1 x2) slices_S512x8x64_o0_1_0_S512x1x64) (k0_pay5 (F := Ideal) x0 x1 x2))) (k0_pay6 (F := Ideal) x0 x1 x2) := rfl
theorem pc0 (x0 : FVec Ideal S512x512 .f32) (x1 : FVec Ideal S512x1536 .bf16) (x2 : FVec Ideal S1536 .f32) :
    k0_pay7 (F := Ideal) x0 x1 x2
      = mixV (softmaxV (scoresV (extractStridedSlice S512x1x64 ![0, 0, 0] (k0_pay4 (F := Ideal) x0 x1 x2) slices_S512x8x64_o0_0_0_S512x1x64) (k0_pay5 (F := Ideal) x0 x1 x2))) (k0_pay6 (F := Ideal) x0 x1 x2) := rfl

theorem hz2 : (![0, 0] : Fin 2 → Nat) = fun _ => 0 := funext fun a => by fin_cases a <;> rfl
theorem hz1 : (![0] : Fin 1 → Nat) = fun _ => 0 := funext fun a => by fin_cases a; rfl

/-- What the body leaves in a block's output buffer [1, 8, 64, 512], as one function of the block's inputs: at head
    `h`, row `r`, column `cc`, the specification's output of head `h` for token `8 r + cc / 64` of the block, lane
    `cc % 64`. -/
def blockSpec (x0 : FVec Ideal S512x512 .f32) (x1 : FVec Ideal S512x1536 .bf16) (x2 : FVec Ideal S1536 .f32) :
    S1x8x64x512.Idx → EReal := fun y =>
  Cert.Attn.headOut
    (tokenFeat x0 x1 x2 ⟨8 * (y 2).val + (y 3).val / 64, by
      have h2 : (y 2).val < 64 := (y 2).isLt; have h3 : (y 3).val < 512 := (y 3).isLt; omega⟩)
    ⟨(y 1).val, (y 1).isLt⟩ ⟨(y 3).val % 64, Nat.mod_lt _ (by decide)⟩

/-- Head `o`'s stored piece is the block function under the piece's rectangle. -/
theorem piece_spec (x0 : FVec Ideal S512x512 .f32) (x1 : FVec Ideal S512x1536 .bf16) (x2 : FVec Ideal S1536 .f32)
    (o : Nat) (ho : o < 8) (hs : S512x8x64.Slices ![0, o, 0] S512x1x64)
    (inb : ∀ a, (![0, o, 0, 0] : Fin 4 → Nat) a + S1x1x64x512.size a ≤ S1x8x64x512.size a)
    (x : (Rect.unit (s := S1x8x64x512) ![0, o, 0, 0] S1x1x64x512.size inb).shape.Idx) :
    mixV (softmaxV (scoresV (extractStridedSlice S512x1x64 ![0, o, 0] (k0_pay4 (F := Ideal) x0 x1 x2) hs) (k0_pay5 (F := Ideal) x0 x1 x2)))
        (k0_pay6 (F := Ideal) x0 x1 x2) x
      = blockSpec x0 x1 x2 ((Rect.unit (s := S1x8x64x512) ![0, o, 0, 0] S1x1x64x512.size inb).emb x) := by
  have hx2 : (x 2).val < 64 := (x 2).isLt
  have hx3 : (x 3).val < 512 := (x 3).isLt
  have ex : x = ix4 (0 : Fin 1) (0 : Fin 1) (⟨(x 2).val, hx2⟩ : Fin 64) (⟨(x 3).val, hx3⟩ : Fin 512) := by
    funext a
    match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have h1 : (x 1).val = 0 := by have : (x 1).val < 1 := (x 1).isLt; omega
  refine (congrArg _ ex).trans ?_
  rw [piece_apply x0 x1 x2 o ho hs ⟨(x 2).val, hx2⟩ ⟨(x 3).val, hx3⟩
    ⟨8 * (x 2).val + (x 3).val / 64, by omega⟩ ⟨(x 3).val % 64, Nat.mod_lt _ (by decide)⟩ rfl rfl]
  unfold blockSpec
  refine congr (congr (congrArg Cert.Attn.headOut (congrArg (tokenFeat x0 x1 x2) (Fin.ext ?_))) (Fin.ext ?_)) (Fin.ext ?_)
  · show 8 * (x 2).val + (x 3).val / 64 = 8 * (0 + 1 * (x 2).val) + (0 + 1 * (x 3).val) / 64
    omega
  · show o = o + 1 * (x 1).val
    omega
  · show (x 3).val % 64 = (0 + 1 * (x 3).val) % 64
    omega

/-- So the output buffer of a block, its eight pieces together, is the block function. -/
theorem out_eq (x0 : Vec Ideal S512x512 .f32) (x1 : Vec Ideal S512x1536 .bf16) (x2 : Vec Ideal S1536 .f32) :
    out0_3 (F := Ideal) x0 x1 x2 = blockSpec x0 x1 x2 := by
  funext y
  unfold out0_3
  simp only [View.ld_unit_zero (S := S512x512) hz2, View.ld_unit_zero (S := S512x1536) hz2, View.ld_unit_zero (S := S1536) hz1]
  rw [pc7, pc6, pc5, pc4, pc3, pc2, pc1, pc0]
  refine View.canon_apply_of_pieces (Val := Elt Ideal) (e := .bf16) (blockSpec x0 x1 x2) _ ?_ y (cover0_3 _ _ _ _ _ _ _ _ y)
  intro p hp x
  simp only [List.mem_cons, List.not_mem_nil, or_false] at hp
  rcases hp with rfl | rfl | rfl | rfl | rfl | rfl | rfl | rfl
  · exact piece_spec x0 x1 x2 7 (by decide) slices_S512x8x64_o0_7_0_S512x1x64 inb_S1x8x64x512_S1x1x64x512_0_7_0_0 x
  · exact piece_spec x0 x1 x2 6 (by decide) slices_S512x8x64_o0_6_0_S512x1x64 inb_S1x8x64x512_S1x1x64x512_0_6_0_0 x
  · exact piece_spec x0 x1 x2 5 (by decide) slices_S512x8x64_o0_5_0_S512x1x64 inb_S1x8x64x512_S1x1x64x512_0_5_0_0 x
  · exact piece_spec x0 x1 x2 4 (by decide) slices_S512x8x64_o0_4_0_S512x1x64 inb_S1x8x64x512_S1x1x64x512_0_4_0_0 x
  · exact piece_spec x0 x1 x2 3 (by decide) slices_S512x8x64_o0_3_0_S512x1x64 inb_S1x8x64x512_S1x1x64x512_0_3_0_0 x
  · exact piece_spec x0 x1 x2 2 (by decide) slices_S512x8x64_o0_2_0_S512x1x64 inb_S1x8x64x512_S1x1x64x512_0_2_0_0 x
  · exact piece_spec x0 x1 x2 1 (by decide) slices_S512x8x64_o0_1_0_S512x1x64 inb_S1x8x64x512_S1x1x64x512_0_1_0_0 x
  · exact piece_spec x0 x1 x2 0 (by decide) slices_S512x8x64_o0_0_0_S512x1x64 inb_S1x8x64x512_S1x1x64x512_0_0_0_0 x

end Cert.KernelIdeal.Block0

end
-- ==== Proof.Region0.lean ====
import proofs.«148005_j45561013076014_2_alg».proof.Proof.Block0

set_option maxRecDepth 16384

noncomputable section

namespace Cert.KernelIdeal.Region0

open Idealize.ShloMosaic Idealize.ShloMosaic.TcCoe Idealize.ShloMosaic.ValueIdx Cert.KernelIdeal Cert.KernelIdeal.Gen Cert.KernelIdeal.Head Cert.KernelIdeal.Body0 Cert.KernelIdeal.Block0 Idealize.SL.Sem Idealize.ShloMosaic.Pipeline

variable (V : (c : Dev nD) → (b : Ref sig .tc) → Buf (Elt Ideal) ((c : Thread nD τ).loc b))

/-- The 1536 projected features of row `ρ` of the flattened input [16384, 512]. -/
def rowFeat (a0 : S16384x512.Idx → EReal) (a1 : S512x1536.Idx → EReal) (a2 : S1536.Idx → EReal) (ρ : Fin 16384) :
    Fin 1536 → EReal :=
  fun o => (∑ k : Fin 512, a0 (ix2 ρ k) * a1 (ix2 k o)) + a2 (ix1 o)

/-- The first region's output array [4, 8, 512, 512] as one function of the arrays it reads: at batch `b`, head `h`,
    row `R`, column `cc`, the specification's output of head `h`, lane `cc % 64`, for the token at row
    `4096 b + 8 R + cc / 64` of the flattened input. -/
def G0 (a0 : S16384x512.Idx → EReal) (a1 : S512x1536.Idx → EReal) (a2 : S1536.Idx → EReal) : S4x8x512x512.Idx → EReal := fun i =>
  Cert.Attn.headOut
    (rowFeat a0 a1 a2 ⟨(i 0).val * 4096 + 8 * (i 2).val + (i 3).val / 64, by
      have h0 : (i 0).val < 4 := (i 0).isLt; have h2 : (i 2).val < 512 := (i 2).isLt; have h3 : (i 3).val < 512 := (i 3).isLt; omega⟩)
    ⟨(i 1).val, (i 1).isLt⟩ ⟨(i 3).val % 64, Nat.mod_lt _ (by decide)⟩

/-- The printed index maps over the 32 points: the input rows move with the point, the weights and bias stay, and
    point `t` writes block `(t / 8, 0, t % 8, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 4) = t.val / 8 ∧ win0_3.index t (1 : Fin 4) = 0
    ∧ win0_3.index t (2 : Fin 4) = t.val % 8 ∧ win0_3.index t (3 : Fin 4) = 0 :=
  (by decide +kernel : ∀ t : Fin grid0.N, _)

/-- The features of token `n` of point `t`'s block are those of row `512 t + n` of the flattened input. -/
theorem feat_blk (c : Dev nD) (t : Fin cfg0.N) (n : Fin 512) :
    tokenFeat (iblk0 V c 0 t) (iblk0 V c 1 t) (iblk0 V c 2 t) n
      = rowFeat (V c main_v0) (V c main_v2) (V c main_arg2) ⟨t.val * 512 + n.val, by
          have := t.isLt; have hN : cfg0.N = 32 := N_0; have := n.isLt; omega⟩ := by
  obtain ⟨e0, e1, e2, e3, e4, -, -, -, -⟩ := idx_facts t
  funext o
  unfold tokenFeat rowFeat
  refine congrArg₂ (· + ·) (Finset.sum_congr rfl fun k _ => congrArg₂ (· * ·) ?_ ?_) ?_
  · show V c main_v0 (((cfg0.win 0).blk t).view.emb (ix2 n k)) = V c main_v0 _
    refine congrArg _ (funext fun a => Fin.ext ?_)
    match a with
    | ⟨0, _⟩ => show win0_0.index t (0 : Fin 2) * 512 + 1 * n.val = t.val * 512 + n.val; omega
    | ⟨1, _⟩ => show win0_0.index t (1 : Fin 2) * 512 + 1 * k.val = k.val; omega
  · show V c main_v2 (((cfg0.win 1).blk t).view.emb (ix2 k o)) = V c main_v2 _
    refine congrArg _ (funext fun a => Fin.ext ?_)
    match a with
    | ⟨0, _⟩ => show win0_1.index t (0 : Fin 2) * 512 + 1 * k.val = k.val; omega
    | ⟨1, _⟩ => show win0_1.index t (1 : Fin 2) * 1536 + 1 * o.val = o.val; omega
  · show V c main_arg2 (((cfg0.win 2).blk t).view.emb (ix1 o)) = V c main_arg2 _
    refine congrArg _ (funext fun a => Fin.ext ?_)
    match a with
    | ⟨0, _⟩ => show win0_2.index t (0 : Fin 1) * 1536 + 1 * o.val = o.val; omega

/-- What point `t` writes back is block `t` of `G0` of the arrays as the region finds them. -/
theorem flushed_eq (c : Dev nD) (t : Fin cfg0.N) :
    (dat0 V c).flushed 3 t = ((cfg0.win 3).blk t).view.read (Elt Ideal) (G0 (V c main_v0) (V c main_v2) (V c main_arg2)) := by
  show (cfg0.win 3).cut (grid0.coords t) ((dat0 V c).after 3 t) = _
  rw [after0_3, out_eq]
  obtain ⟨-, -, -, -, -, e5, e6, e7, e8⟩ := idx_facts t
  funext j
  have hj1 : (j 1).val < 8 := (j 1).isLt
  have hj2 : (j 2).val < 64 := (j 2).isLt
  have hj3 : (j 3).val < 512 := (j 3).isLt
  have hN : cfg0.N = 32 := N_0
  have ht := t.isLt
  show blockSpec (iblk0 V c 0 t) (iblk0 V c 1 t) (iblk0 V c 2 t) j
    = G0 (V c main_v0) (V c main_v2) (V c main_arg2) (((cfg0.win 3).blk t).view.emb j)
  unfold blockSpec G0
  rw [feat_blk]
  refine congr (congr (congrArg Cert.Attn.headOut (congrArg (rowFeat (V c main_v0) (V c main_v2) (V c main_arg2)) (Fin.ext ?_))) (Fin.ext ?_)) (Fin.ext ?_)
  · show t.val * 512 + (8 * (j 2).val + (j 3).val / 64)
      = (win0_3.index t (0 : Fin 4) * 1 + 1 * (j 0).val) * 4096 + 8 * (win0_3.index t (2 : Fin 4) * 64 + 1 * (j 2).val)
        + (win0_3.index t (3 : Fin 4) * 512 + 1 * (j 3).val) / 64
    have hj0 : (j 0).val < 1 := (j 0).isLt
    omega
  · show (j 1).val = win0_3.index t (1 : Fin 4) * 8 + 1 * (j 1).val
    omega
  · show (j 3).val % 64 = (win0_3.index t (3 : Fin 4) * 512 + 1 * (j 3).val) % 64
    omega

/-- An index of the output array is in point `t`'s block iff each coordinate is in the block's range on its axis. -/
theorem mem_blk (t : Fin cfg0.N) (i : S4x8x512x512.Idx) :
    i ∈ ((cfg0.win 3).blk t).view.set ↔ ∀ a : Fin 4, win0_3.index t a * S1x8x64x512.size a ≤ (i a).val
      ∧ (i a).val < win0_3.index t a * S1x8x64x512.size a + S1x8x64x512.size a := by
  show i ∈ ((View.whole main_v5).slice (win0_3.rect t)).set ↔ _
  rw [View.set_slice_whole, Rect.mem_set_unit]
  exact Iff.rfl

/-- The 32 blocks cover the array: index `(b, h, R, cc)` is in the block of point `8 b + R / 64`. -/
theorem cover (i : S4x8x512x512.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 512 := (i 2).isLt
  have h3 : (i 3).val < 512 := (i 3).isLt
  have hN : cfg0.N = 32 := N_0
  let t : Fin cfg0.N := ⟨(i 0).val * 8 + (i 2).val / 64, by omega⟩
  have htv : t.val = (i 0).val * 8 + (i 2).val / 64 := rfl
  obtain ⟨-, -, -, -, -, e5, e6, e7, e8⟩ := idx_facts t
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 64 ≤ (i 2).val ∧ (i 2).val < win0_3.index t (2 : Fin 4) * 64 + 64; omega
  | ⟨3, _⟩ => show win0_3.index t (3 : Fin 4) * 512 ≤ (i 3).val ∧ (i 3).val < win0_3.index t (3 : Fin 4) * 512 + 512; omega

/-- The first region's output array after its run. -/
theorem final (c : Dev nD) : (dat0 V c).arrAt 3 cfg0.N = G0 (V c main_v0) (V c main_v2) (V c main_arg2) :=
  (dat0 V c).arrAt_eq_of_cover 3 (G0 (V c main_v0) (V c main_v2) (V c main_arg2)) (fun t _ => flushed_eq V c t) cover

end Cert.KernelIdeal.Region0

end
-- ==== Proof.Region1.lean ====
/-
  The second region's value: the second projection. Each grid point takes a block of 2048 rows of the re-laid
  attention output [16384, 512], multiplies it by the transposed weights [512, 512] and adds the bias; the eight
  blocks tile the output array, so after the region the output array is that projection of the whole input array.
-/
import proofs.«148005_j45561013076014_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx Cert.KernelIdeal Cert.KernelIdeal.Gen Idealize.SL.Sem Idealize.ShloMosaic.Pipeline

/-! ## The body at one row and column of its block

    The contraction's operand indices, coordinate by coordinate. -/

theorem d1_lhs0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem d1_lhs1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem d1_rhs0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem d1_rhs1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The second projection's body at row `r`, column `o` of its block: the row of the re-laid attention output
    times column `o` of the transposed weights, plus the bias. -/
theorem outProj_apply (x0 : Vec Ideal S2048x512 .bf16) (x1 : Vec Ideal S512x512 .bf16) (x2 : Vec Ideal S512 .f32)
    (r : Fin 2048) (o : Fin 512) :
    k1_pay1 (F := Ideal) x0 x1 x2 (ix2 r o) = (∑ k : Fin 512, x0 (ix2 r k) * x1 (ix2 k o)) + x2 (ix1 o) := by
  unfold k1_pay1
  rw [addf_apply, shapeCast_self, shapeCast_self]
  refine congrArg₂ (· + ·) ?_ ?_
  · simp only [matmul]
    rw [Ideal.matmul_constant_zero_apply,
      ← Equiv.sum_comp (contrEquiv1 dot_S2048x512_S512x512_S2048x512_1_0_0_1_n_n 512 rfl rfl).symm]
    refine Finset.sum_congr rfl fun k _ => ?_
    have hk := contrEquiv1_symm_val dot_S2048x512_S512x512_S2048x512_1_0_0_1_n_n 512 rfl rfl k
    have el : dot_S2048x512_S512x512_S2048x512_1_0_0_1_n_n.lhsIdx (ix2 r o)
        ((contrEquiv1 dot_S2048x512_S512x512_S2048x512_1_0_0_1_n_n 512 rfl rfl).symm k) = ix2 r k :=
      funext fun a => Fin.ext (by
        match a with
        | ⟨0, _⟩ => exact d1_lhs0 _ _
        | ⟨1, _⟩ => exact (d1_lhs1 _ _).trans hk)
    have er : dot_S2048x512_S512x512_S2048x512_1_0_0_1_n_n.rhsIdx (ix2 r o)
        ((contrEquiv1 dot_S2048x512_S512x512_S2048x512_1_0_0_1_n_n 512 rfl rfl).symm k) = ix2 k o :=
      funext fun a => Fin.ext (by
        match a with
        | ⟨0, _⟩ => exact (d1_rhs0 _ _).trans hk
        | ⟨1, _⟩ => exact d1_rhs1 _ _)
    rw [el, er]
  · refine (broadcastTo_apply _ broadcasts_S1x512_S2048x512 (ix2 r o) (ix2 (0 : Fin 1) o) (fun a => ?_)).trans ?_
    · match a with
      | ⟨0, _⟩ => show 0 = if (1 : Nat) = 1 then 0 else _; rw [if_pos rfl]
      | ⟨1, _⟩ => show o.val = if (512 : Nat) = 1 then 0 else o.val; rw [if_neg (by decide)]
    · exact shapeCast_apply x2 shapeCasts_S512_S1x512 (ix2 (0 : Fin 1) o) (ix1 o)
        (by rw [Shape.rowMajor_val_one, Shape.rowMajor_val_two]; show o.val = 0 * 512 + o.val; omega)

/-! ## From blocks to the array -/

variable (V : (c : Dev nD) → (b : Ref sig .tc) → Buf (Elt Ideal) ((c : Thread nD τ).loc b))

/-- The second projection of the whole array: row `i 0` of the re-laid attention output times column `i 1` of the
    transposed weights, plus the bias at `i 1`. -/
def G1 (a0 : S16384x512.Idx → EReal) (a1 : S512x512.Idx → EReal) (a2 : S512.Idx → EReal) : S16384x512.Idx → EReal := fun i =>
  (∑ k : Fin 512, a0 (ix2 ⟨(i 0).val, (i 0).isLt⟩ k) * a1 (ix2 k ⟨(i 1).val, (i 1).isLt⟩)) + a2 (ix1 ⟨(i 1).val, (i 1).isLt⟩)

theorem hz2 : (![0, 0] : Fin 2 → Nat) = fun _ => 0 := funext fun a => by fin_cases a <;> rfl
theorem hz1 : (![0] : Fin 1 → Nat) = fun _ => 0 := funext fun a => by fin_cases a <;> rfl

/-- The printed index maps over the 8 points: the input rows and the output rows move with the point (block `t` of
    2048 rows), the weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- What the body leaves in the output block, at row `r` and column `o`: its one store covers the block, and the stored
    value is the projection of the loaded blocks. -/
theorem out_apply (x0 : Vec Ideal S2048x512 .bf16) (x1 : Vec Ideal S512x512 .bf16) (x2 : Vec Ideal S512 .f32)
    (r : Fin 2048) (o : Fin 512) :
    out1_3 (F := Ideal) x0 x1 x2 (ix2 r o) = (∑ k : Fin 512, x0 (ix2 r k) * x1 (ix2 k o)) + x2 (ix1 o) := by
  unfold out1_3
  rw [View.canon_unit_zero hz2]
  simp only [View.ld_unit_zero (S := S2048x512) hz2, View.ld_unit_zero (S := S512x512) hz2, View.ld_unit_zero (S := S512) hz1]
  exact outProj_apply x0 x1 x2 r o

/-- What point `t` writes back is block `t` of `G1` of the arrays as the region finds them. -/
theorem flushed_eq (c : Dev nD) (t : Fin cfg1.N) :
    (dat1 V c).flushed 3 t = ((cfg1.win 3).blk t).view.read (Elt Ideal) (G1 (V c main_v6) (V c main_v4) (V c main_arg4)) := by
  show (cfg1.win 3).cut (grid1.coords t) ((dat1 V c).after 3 t) = _
  rw [after1_3]
  obtain ⟨e0, e1, e2, e3, e4, e5, e6⟩ := idx_facts t
  funext j
  obtain ⟨r, o, rfl⟩ : ∃ (r : Fin 2048) (o : Fin 512), j = ix2 r o := ⟨j 0, j 1, eq_ix2 j⟩
  show out1_3 (iblk1 V c 0 t) (iblk1 V c 1 t) (iblk1 V c 2 t) (ix2 r o)
    = G1 (V c main_v6) (V c main_v4) (V c main_arg4) (((cfg1.win 3).blk t).view.emb (ix2 r o))
  rw [out_apply]
  unfold G1
  refine congrArg₂ (· + ·) (Finset.sum_congr rfl fun k _ => congrArg₂ (· * ·) ?_ ?_) ?_
  · show V c main_v6 (((cfg1.win 0).blk t).view.emb (ix2 r k)) = V c main_v6 _
    refine congrArg _ (funext fun a => Fin.ext ?_)
    match a with
    | ⟨0, _⟩ => show win1_0.index t (0 : Fin 2) * 2048 + 1 * r.val = win1_3.index t (0 : Fin 2) * 2048 + 1 * r.val; omega
    | ⟨1, _⟩ => show win1_0.index t (1 : Fin 2) * 512 + 1 * k.val = k.val; omega
  · show V c main_v4 (((cfg1.win 1).blk t).view.emb (ix2 k o)) = V c main_v4 _
    refine congrArg _ (funext fun a => Fin.ext ?_)
    match a with
    | ⟨0, _⟩ => show win1_1.index t (0 : Fin 2) * 512 + 1 * k.val = k.val; omega
    | ⟨1, _⟩ => show win1_1.index t (1 : Fin 2) * 512 + 1 * o.val = win1_3.index t (1 : Fin 2) * 512 + 1 * o.val; omega
  · show V c main_arg4 (((cfg1.win 2).blk t).view.emb (ix1 o)) = V c main_arg4 _
    refine congrArg _ (funext fun a => Fin.ext ?_)
    match a with
    | ⟨0, _⟩ => show win1_2.index t (0 : Fin 1) * 512 + 1 * o.val = win1_3.index t (1 : Fin 2) * 512 + 1 * o.val; omega

/-- An index of the output array is in point `t`'s block iff each coordinate is in the block's range on its axis. -/
theorem mem_blk (t : Fin cfg1.N) (i : S16384x512.Idx) :
    i ∈ ((cfg1.win 3).blk t).view.set ↔ ∀ a : Fin 2, win1_3.index t a * S2048x512.size a ≤ (i a).val
      ∧ (i a).val < win1_3.index t a * S2048x512.size a + S2048x512.size a := by
  show i ∈ ((View.whole main_v7).slice (win1_3.rect t)).set ↔ _
  rw [View.set_slice_whole, Rect.mem_set_unit]
  exact Iff.rfl

/-- The 8 blocks cover the array: row `ρ` is in the block of point `ρ / 2048`. -/
theorem cover (i : S16384x512.Idx) : ∃ t : Fin cfg1.N, (cfg1.win 3).flush t = true ∧ i ∈ ((cfg1.win 3).blk t).view.set := by
  have h0 : (i 0).val < 16384 := (i 0).isLt
  have h1 : (i 1).val < 512 := (i 1).isLt
  have hN : cfg1.N = 8 := N_1
  let t : Fin cfg1.N := ⟨(i 0).val / 2048, by omega⟩
  have htv : t.val = (i 0).val / 2048 := rfl
  obtain ⟨-, -, -, -, -, e5, e6⟩ := idx_facts t
  refine ⟨t, flush1_3 t, ?_⟩
  rw [mem_blk]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 512 ≤ (i 1).val ∧ (i 1).val < win1_3.index t (1 : Fin 2) * 512 + 512; omega

/-- The second region's output array after its run. -/
theorem final (c : Dev nD) : (dat1 V c).arrAt 3 cfg1.N = G1 (V c main_v6) (V c main_v4) (V c main_arg4) :=
  (dat1 V c).arrAt_eq_of_cover 3 (G1 (V c main_v6) (V c main_v4) (V c main_arg4)) (fun t _ => flushed_eq V c t) cover

end Cert.KernelIdeal.Region1

end
-- ==== Proof.Bridge.lean ====
import proofs.«148005_j45561013076014_2_alg».proof.Proof.Region0
import proofs.«148005_j45561013076014_2_alg».proof.Proof.Region1

set_option maxRecDepth 16384

noncomputable section

namespace Cert.KernelIdeal.Bridge

open Idealize.ShloMosaic Idealize.ShloMosaic.TcCoe Idealize.ShloMosaic.ValueIdx Cert.KernelIdeal Cert.KernelIdeal.Gen Cert.KernelIdeal.Region0 Cert.KernelIdeal.Region1

/-! ## The kernel's composed value is the specification

  The first region reads the input flattened to [16384, 512] (row `4096 b + n` is token `(b, n)`) and the weights
  transposed; its output [4, 8, 512, 512], flattened to [16384, 512], is what the second region reads (row
  `4096 b + n` holds head `n / 512` of the tokens `8 (n % 512) .. 8 (n % 512) + 7`), and the second region's
  output is viewed as [4, 4096, 512]. -/

/-- Row `4096 b + n` of the flattened input has the projected features of token `(b, n)`. -/
theorem rowFeat_eq (x : FVec Ideal S4x4096x512 .f32) (w : FVec Ideal S1536x512 .f32) (bias : FVec Ideal S1536 .f32)
    (b : Fin 4) (n : Fin 4096) (ρ : Fin 16384) (hρ : ρ.val = b.val * 4096 + n.val) :
    rowFeat (shapeCast S16384x512 x shapeCasts_S4x4096x512_S16384x512)
        (truncf .bf16 (transpose S512x1536 [1, 0] w transposes_S1536x512_S512x1536_1_0) bitsLt_bf16_f32) bias ρ
      = Cert.Attn.proj x w bias b n := by
  funext o
  unfold rowFeat Cert.Attn.proj
  refine congrArg₂ (· + ·) (Finset.sum_congr rfl fun k _ => congrArg₂ (· * ·) ?_ ?_) rfl
  · exact shapeCast_apply x shapeCasts_S4x4096x512_S16384x512 (ix2 ρ k) (ix3 b n k)
      (by rw [Shape.rowMajor_val_three, Shape.rowMajor_val_two]
          show (b.val * 4096 + n.val) * 512 + k.val = ρ.val * 512 + k.val; omega)
  · rw [truncf_apply]
    exact transpose_ix2_apply w transposes_S1536x512_S512x1536_1_0 k o

/-- The first region's output, flattened, at row `4096 b + n`, column `k` is the re-laid attention output. -/
theorem mixed_eq (x : FVec Ideal S4x4096x512 .f32) (w : FVec Ideal S1536x512 .f32) (bias : FVec Ideal S1536 .f32)
    (b : Fin 4) (n : Fin 4096) (k : Fin 512) (ρ : Fin 16384) (hρ : ρ.val = b.val * 4096 + n.val) :
    shapeCast S16384x512 (G0 (shapeCast S16384x512 x shapeCasts_S4x4096x512_S16384x512)
        (truncf .bf16 (transpose S512x1536 [1, 0] w transposes_S1536x512_S512x1536_1_0) bitsLt_bf16_f32) bias)
      shapeCasts_S4x8x512x512_S16384x512 (ix2 ρ k) = Cert.Attn.mixed x w bias b n k := by
  have hn := n.isLt
  have hk := k.isLt
  refine (shapeCast_apply _ shapeCasts_S4x8x512x512_S16384x512 (ix2 ρ k)
    (ix4 b (⟨n.val / 512, by omega⟩ : Fin 8) (⟨n.val % 512, by omega⟩ : Fin 512) k)
    (by rw [Shape.rowMajor_val_four, Shape.rowMajor_val_two]
        show ((b.val * 8 + n.val / 512) * 512 + n.val % 512) * 512 + k.val = ρ.val * 512 + k.val; omega)).trans ?_
  unfold G0 Cert.Attn.mixed
  rw [rowFeat_eq x w bias b (Cert.Attn.tokenOf n k) _
    (by show b.val * 4096 + 8 * (n.val % 512) + k.val / 64 = b.val * 4096 + (8 * (n.val % 512) + k.val / 64); omega)]
  rfl

/-- The kernel's result array, composed from its two regions and the host operations between them, is the
    specification's. -/
theorem kernel_result (x : FVec Ideal S4x4096x512 .f32) (w : FVec Ideal S1536x512 .f32) (bias : FVec Ideal S1536 .f32)
    (w' : FVec Ideal S512x512 .f32) (bias' : FVec Ideal S512 .f32) :
    shapeCast S4x4096x512
        (G1 (shapeCast S16384x512 (G0 (shapeCast S16384x512 x shapeCasts_S4x4096x512_S16384x512)
              (truncf .bf16 (transpose S512x1536 [1, 0] w transposes_S1536x512_S512x1536_1_0) bitsLt_bf16_f32) bias)
            shapeCasts_S4x8x512x512_S16384x512)
          (truncf .bf16 (transpose S512x512 [1, 0] w' transposes_S512x512_S512x512_1_0) bitsLt_bf16_f32) bias')
        shapeCasts_S16384x512_S4x4096x512
      = Cert.Attn.result x w bias w' bias' := by
  funext i
  obtain ⟨b, n, o, rfl⟩ : ∃ (b : Fin 4) (n : Fin 4096) (o : Fin 512), i = ix3 b n o := ⟨i 0, i 1, i 2, eq_ix3 i⟩
  have hb := b.isLt
  have hn := n.isLt
  refine (shapeCast_apply _ shapeCasts_S16384x512_S4x4096x512 (ix3 b n o) (ix2 (⟨b.val * 4096 + n.val, by omega⟩ : Fin 16384) o)
    (by rw [Shape.rowMajor_val_two, Shape.rowMajor_val_three]; rfl)).trans ?_
  show _ = Cert.Attn.resultAt x w bias w' bias' b n o
  unfold G1 Cert.Attn.resultAt
  refine congrArg₂ (· + ·) (Finset.sum_congr rfl fun k _ => congrArg₂ (· * ·) ?_ ?_) rfl
  · exact mixed_eq x w bias b n k _ rfl
  · rw [truncf_apply]
    exact transpose_ix2_apply w' transposes_S512x512_S512x512_1_0 k o

end Cert.KernelIdeal.Bridge

end
-- ==== Proof.RefSide.lean ====
/-
  The reference program, stage by stage, is the attention across the heads of one token that the
  specification writes down: every stage is read at explicit coordinates and identified with the
  specification's formula for it, up to the final projected result.
-/
import proofs.«148005_j45561013076014_2_alg».proof.Proof.Gen.ReferenceIdeal.Read
import proofs.«148005_j45561013076014_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Attn

variable (x0 : (⟨S4x4096x512, .f32⟩ : BufTy).Contents (Elt Ideal)) (x1 : (⟨S1536x512, .f32⟩ : BufTy).Contents (Elt Ideal))
  (x2 : (⟨S1536, .f32⟩ : BufTy).Contents (Elt Ideal))

/-- The first projection: the contraction over the 512 input features plus the broadcast bias. -/
theorem v3_eq (b : Fin 4) (n : Fin 4096) (o : Fin 1536) :
    val_main_v3 (F := Ideal) x0 x1 x2 (ix3 b n o) = proj x0 x1 x2 b n o := by
  rw [val_main_v3_apply, val_main_v0_apply, val_main_v2_apply, val_main_v1_apply]
  have hl : ∀ k : Fin 512, lidx_main_v0 (ix3 b n o) k = ix3 b n k := fun k =>
    funext fun a => Fin.ext (by match a with | ⟨0, _⟩ => rfl | ⟨1, _⟩ => rfl | ⟨2, _⟩ => rfl)
  have hr : ∀ k : Fin 512, ridx_main_v0 (ix3 b n o) k = ix2 o k := fun k =>
    funext fun a => Fin.ext (by match a with | ⟨0, _⟩ => rfl | ⟨1, _⟩ => rfl)
  have hb : idx_main_v1 (idx_main_v2 (ix3 b n o)) = ix1 o :=
    funext fun a => Fin.ext (by match a with | ⟨0, _⟩ => rfl)
  simp only [hl, hr, hb]
  rfl

/-! The projected features are cut into query, key and value parts of 8 heads of 64 lanes:
    part `s`, head `h`, lane `d` is feature `s * 512 + h * 64 + d`. -/

/-- Row-major position of (b, n, s, h, d) in [4, 4096, 3, 8, 64] is position (b, n, s*512 + h*64 + d) in [4, 4096, 1536]. -/
theorem idx4_eq (b : Fin 4) (n : Fin 4096) (s : Fin 3) (h : Fin 8) (d : Fin 64) :
    idx_main_v4 (ix5 b n s h d) = ix3 b n (feat s h d) := by
  have hb := b.isLt; have hn := n.isLt; have hs := s.isLt; have hh := h.isLt; have hd := d.isLt
  funext a; apply Fin.ext
  match a with
  | ⟨0, _⟩ =>
    show ((((b.val * 4096 + n.val) * 3 + s.val) * 8 + h.val) * 64 + d.val) / 6291456 = b.val
    omega
  | ⟨1, _⟩ =>
    show ((((b.val * 4096 + n.val) * 3 + s.val) * 8 + h.val) * 64 + d.val) / 1536 % 4096 = n.val
    omega
  | ⟨2, _⟩ =>
    show ((((b.val * 4096 + n.val) * 3 + s.val) * 8 + h.val) * 64 + d.val) % 1536 = s.val * 512 + h.val * 64 + d.val
    omega

/-- Dropping the unit axis: position (b, n, h, d) of [4, 4096, 8, 64] is position (b, n, 0, h, d) of [4, 4096, 1, 8, 64]. -/
theorem idx6_eq (b : Fin 4) (n : Fin 4096) (h : Fin 8) (d : Fin 64) :
    idx_main_v6 (ix4 b n h d) = ix5 b n (0 : Fin 1) h d := by
  have hb := b.isLt; have hn := n.isLt; have hh := h.isLt; have hd := d.isLt
  funext a; apply Fin.ext
  match a with
  | ⟨0, _⟩ => show (((b.val * 4096 + n.val) * 8 + h.val) * 64 + d.val) / 2097152 = b.val; omega
  | ⟨1, _⟩ => show (((b.val * 4096 + n.val) * 8 + h.val) * 64 + d.val) / 512 % 4096 = n.val; omega
  | ⟨2, _⟩ => rfl
  | ⟨3, _⟩ => show (((b.val * 4096 + n.val) * 8 + h.val) * 64 + d.val) / 64 % 8 = h.val; omega
  | ⟨4, _⟩ => show (((b.val * 4096 + n.val) * 8 + h.val) * 64 + d.val) % 64 = d.val; omega

theorem idx8_eq (b : Fin 4) (n : Fin 4096) (h : Fin 8) (d : Fin 64) :
    idx_main_v8 (ix4 b n h d) = ix5 b n (0 : Fin 1) h d := idx6_eq b n h d

theorem idx10_eq (b : Fin 4) (n : Fin 4096) (h : Fin 8) (d : Fin 64) :
    idx_main_v10 (ix4 b n h d) = ix5 b n (0 : Fin 1) h d := idx6_eq b n h d

/-- The three slices take part 0, 1 and 2. -/
theorem idx5_eq (b : Fin 4) (n : Fin 4096) (h : Fin 8) (d : Fin 64) :
    idx_main_v5 (ix5 b n (0 : Fin 1) h d) = ix5 b n (0 : Fin 3) h d :=
  funext fun a => Fin.ext (by match a with | ⟨0, _⟩ => rfl | ⟨1, _⟩ => rfl | ⟨2, _⟩ => rfl | ⟨3, _⟩ => rfl | ⟨4, _⟩ => rfl)

theorem idx7_eq (b : Fin 4) (n : Fin 4096) (h : Fin 8) (d : Fin 64) :
    idx_main_v7 (ix5 b n (0 : Fin 1) h d) = ix5 b n (1 : Fin 3) h d :=
  funext fun a => Fin.ext (by match a with | ⟨0, _⟩ => rfl | ⟨1, _⟩ => rfl | ⟨2, _⟩ => rfl | ⟨3, _⟩ => rfl | ⟨4, _⟩ => rfl)

theorem idx9_eq (b : Fin 4) (n : Fin 4096) (h : Fin 8) (d : Fin 64) :
    idx_main_v9 (ix5 b n (0 : Fin 1) h d) = ix5 b n (2 : Fin 3) h d :=
  funext fun a => Fin.ext (by match a with | ⟨0, _⟩ => rfl | ⟨1, _⟩ => rfl | ⟨2, _⟩ => rfl | ⟨3, _⟩ => rfl | ⟨4, _⟩ => rfl)

/-- The query part: lane `d` of head `h` of token (b, n). -/
theorem v6_eq (b : Fin 4) (n : Fin 4096) (h : Fin 8) (d : Fin 64) :
    val_main_v6 (F := Ideal) x0 x1 x2 (ix4 b n h d) = proj x0 x1 x2 b n (feat 0 h d) := by
  rw [val_main_v6_apply, val_main_v5_apply, val_main_v4_apply, idx6_eq, idx5_eq, idx4_eq, v3_eq]

/-- The key part. -/
theorem v8_eq (b : Fin 4) (n : Fin 4096) (h : Fin 8) (d : Fin 64) :
    val_main_v8 (F := Ideal) x0 x1 x2 (ix4 b n h d) = proj x0 x1 x2 b n (feat 1 h d) := by
  rw [val_main_v8_apply, val_main_v7_apply, val_main_v4_apply, idx8_eq, idx7_eq, idx4_eq, v3_eq]

/-- The value part. -/
theorem v10_eq (b : Fin 4) (n : Fin 4096) (h : Fin 8) (d : Fin 64) :
    val_main_v10 (F := Ideal) x0 x1 x2 (ix4 b n h d) = proj x0 x1 x2 b n (feat 2 h d) := by
  rw [val_main_v10_apply, val_main_v9_apply, val_main_v4_apply, idx10_eq, idx9_eq, idx4_eq, v3_eq]

/-- Head `h`'s score of head `g`: the inner product over the 64 lanes of `h`'s query with `g`'s key, times 1/8. -/
theorem v13_eq (b : Fin 4) (n : Fin 4096) (h g : Fin 8) :
    val_main_v13 (F := Ideal) x0 x1 x2 (ix4 b n h g) = score (proj x0 x1 x2 b n) h g := by
  rw [val_main_v13_apply, val_main_v11_apply, val_main_v12_apply, val_main_cst_apply]
  have hl : ∀ k : Fin 64, lidx_main_v11 (ix4 b n h g) k = ix4 b n h k := fun k =>
    funext fun a => Fin.ext (by match a with | ⟨0, _⟩ => rfl | ⟨1, _⟩ => rfl | ⟨2, _⟩ => rfl | ⟨3, _⟩ => rfl)
  have hr : ∀ k : Fin 64, ridx_main_v11 (ix4 b n h g) k = ix4 b n g k := fun k =>
    funext fun a => Fin.ext (by match a with | ⟨0, _⟩ => rfl | ⟨1, _⟩ => rfl | ⟨2, _⟩ => rfl | ⟨3, _⟩ => rfl)
  simp only [hl, hr, v6_eq, v8_eq]
  rfl

/-- The shape fact that names the index with the reduced coordinate put back. -/
theorem reduces_d3 : S4x4096x8x8.Reduces [3] S4x4096x8 := by decide

/-- (b, n, h) with `k` inserted on the last axis is (b, n, h, k). -/
theorem lift_d3 (b : Fin 4) (n : Fin 4096) (h : Fin 8) (k : Fin (S4x4096x8x8.size 3)) :
    reduces_d3.lift (ix3 b n h) k = ix4 b n h (⟨k.val, k.isLt⟩ : Fin 8) :=
  funext fun a => Fin.ext (by match a with | ⟨0, _⟩ => rfl | ⟨1, _⟩ => rfl | ⟨2, _⟩ => rfl | ⟨3, _⟩ => rfl)

/-- The maximum-reduction over the last axis, started at minus infinity, is the largest score of head `h`. -/
theorem v14_eq (b : Fin 4) (n : Fin 4096) (h : Fin 8) :
    val_main_v14 (F := Ideal) x0 x1 x2 (ix3 b n h) = rowMax (proj x0 x1 x2 b n) h := by
  unfold val_main_v14
  rw [Host.reduce_eq_fold_single FloatOps.maximumf _ _ reducesTo_S4x4096x8x8_S4x4096x8_d3 reduces_d3 h_S_]
  have hf : (val_main_v13 (F := Ideal) x0 x1 x2 ∘ reduces_d3.lift (ix3 b n h)) = score (proj x0 x1 x2 b n) h :=
    funext fun k => by
      show val_main_v13 (F := Ideal) x0 x1 x2 (reduces_d3.lift (ix3 b n h) k) = _
      rw [lift_d3, v13_eq]
      rfl
  exact congrArg (fun f => Finset.fold max negInf f (Finset.univ : Finset (Fin 8))) hf

/-- Taking the maximum with minus infinity once more leaves the row maximum. -/
theorem v16_eq (b : Fin 4) (n : Fin 4096) (h : Fin 8) :
    val_main_v16 (F := Ideal) x0 x1 x2 (ix3 b n h) = rowMax (proj x0 x1 x2 b n) h := by
  rw [val_main_v16_apply, val_main_v15_apply, val_main_cst_1_apply, v14_eq]
  exact max_negInf_rowMax _ _

/-- The row maximum, broadcast back along the scored head. -/
theorem v18_eq (b : Fin 4) (n : Fin 4096) (h g : Fin 8) :
    val_main_v18 (F := Ideal) x0 x1 x2 (ix4 b n h g) = rowMax (proj x0 x1 x2 b n) h := by
  rw [val_main_v18_apply, val_main_v17_apply]
  have hi : idx_main_v17 (idx_main_v18 (ix4 b n h g)) = ix3 b n h :=
    funext fun a => Fin.ext (by match a with | ⟨0, _⟩ => rfl | ⟨1, _⟩ => rfl | ⟨2, _⟩ => rfl)
  rw [hi, v16_eq]

/-- The softmax numerator: the exponential of the score less the row maximum. -/
theorem v20_eq (b : Fin 4) (n : Fin 4096) (h g : Fin 8) :
    val_main_v20 (F := Ideal) x0 x1 x2 (ix4 b n h g) = weight (proj x0 x1 x2 b n) h g := by
  rw [val_main_v20_apply, val_main_v19_apply, v13_eq, v18_eq]
  rfl

/-- The softmax denominator: zero plus the sum of the numerators over the scored heads. -/
theorem v21_eq (b : Fin 4) (n : Fin 4096) (h : Fin 8) :
    val_main_v21 (F := Ideal) x0 x1 x2 (ix3 b n h) = norm (proj x0 x1 x2 b n) h := by
  rw [val_main_v21_apply, val_main_cst_2_apply]
  have hi : ∀ k : Fin 8, idx_main_v21 (ix3 b n h) k = ix4 b n h k := fun k =>
    funext fun a => Fin.ext (by match a with | ⟨0, _⟩ => rfl | ⟨1, _⟩ => rfl | ⟨2, _⟩ => rfl | ⟨3, _⟩ => rfl)
  simp only [hi, v20_eq]
  rw [Ideal.ofBits_def, Ideal.ofBits_zero_f32, zero_add]
  rfl

/-- The denominator, broadcast back along the scored head. -/
theorem v23_eq (b : Fin 4) (n : Fin 4096) (h g : Fin 8) :
    val_main_v23 (F := Ideal) x0 x1 x2 (ix4 b n h g) = norm (proj x0 x1 x2 b n) h := by
  rw [val_main_v23_apply, val_main_v22_apply]
  have hi : idx_main_v22 (idx_main_v23 (ix4 b n h g)) = ix3 b n h :=
    funext fun a => Fin.ext (by match a with | ⟨0, _⟩ => rfl | ⟨1, _⟩ => rfl | ⟨2, _⟩ => rfl)
  rw [hi, v21_eq]

/-- The softmax weight: numerator over denominator. -/
theorem v24_eq (b : Fin 4) (n : Fin 4096) (h g : Fin 8) :
    val_main_v24 (F := Ideal) x0 x1 x2 (ix4 b n h g)
      = Ideal.div (weight (proj x0 x1 x2 b n) h g) (norm (proj x0 x1 x2 b n) h) := by
  rw [val_main_v24_apply, v20_eq, v23_eq]
  rfl

/-- Head `h`'s output lane `d`: the value lanes of the eight heads mixed by the softmax weights. -/
theorem v25_eq (b : Fin 4) (n : Fin 4096) (h : Fin 8) (d : Fin 64) :
    val_main_v25 (F := Ideal) x0 x1 x2 (ix4 b n h d) = headOut (proj x0 x1 x2 b n) h d := by
  rw [val_main_v25_apply]
  have hl : ∀ k : Fin 8, lidx_main_v25 (ix4 b n h d) k = ix4 b n h k := fun k =>
    funext fun a => Fin.ext (by match a with | ⟨0, _⟩ => rfl | ⟨1, _⟩ => rfl | ⟨2, _⟩ => rfl | ⟨3, _⟩ => rfl)
  have hr : ∀ k : Fin 8, ridx_main_v25 (ix4 b n h d) k = ix4 b n k d := fun k =>
    funext fun a => Fin.ext (by match a with | ⟨0, _⟩ => rfl | ⟨1, _⟩ => rfl | ⟨2, _⟩ => rfl | ⟨3, _⟩ => rfl)
  simp only [hl, hr, v24_eq, v10_eq]
  rfl

/-- The outputs re-laid: transposing heads and tokens and reading the result as [4, 4096, 512] puts, at row `n` and
    column `c`, lane `c % 64` of head `n / 512` of token `8 * (n % 512) + c / 64`. -/
theorem idx27_eq (b : Fin 4) (n : Fin 4096) (c : Fin 512) :
    idx_main_v26 (idx_main_v27 (ix3 b n c)) = ix4 b (tokenOf n c) (headOf n) (laneOf c) := by
  have hb := b.isLt; have hn := n.isLt; have hc := c.isLt
  funext a; apply Fin.ext
  match a with
  | ⟨0, _⟩ => show ((b.val * 4096 + n.val) * 512 + c.val) / 2097152 = b.val; omega
  | ⟨1, _⟩ => show ((b.val * 4096 + n.val) * 512 + c.val) / 64 % 4096 = 8 * (n.val % 512) + c.val / 64; omega
  | ⟨2, _⟩ => show ((b.val * 4096 + n.val) * 512 + c.val) / 262144 % 8 = n.val / 512; omega
  | ⟨3, _⟩ => show ((b.val * 4096 + n.val) * 512 + c.val) % 64 = c.val % 64; omega

theorem v27_eq (b : Fin 4) (n : Fin 4096) (c : Fin 512) :
    val_main_v27 (F := Ideal) x0 x1 x2 (ix3 b n c) = mixed x0 x1 x2 b n c := by
  rw [val_main_v27_apply, val_main_v26_apply, idx27_eq, v25_eq]
  rfl

/-- The reference's result is the specification's: the second projection of the re-laid attention output plus its bias. -/
theorem ref_result (x0 : (⟨S4x4096x512, .f32⟩ : BufTy).Contents (Elt Ideal)) (x1 : (⟨S1536x512, .f32⟩ : BufTy).Contents (Elt Ideal))
    (x2 : (⟨S1536, .f32⟩ : BufTy).Contents (Elt Ideal)) (x3 : (⟨S512x512, .f32⟩ : BufTy).Contents (Elt Ideal))
    (x4 : (⟨S512, .f32⟩ : BufTy).Contents (Elt Ideal)) :
    val_main_v31 (F := Ideal) x0 x1 x2 x3 x4 = Cert.Attn.result x0 x1 x2 x3 x4 := by
  funext i
  obtain ⟨b, n, o, rfl⟩ : ∃ (b : Fin 4) (n : Fin 4096) (o : Fin 512), i = ix3 b n o := ⟨i 0, i 1, i 2, ValueIdx.eq_ix3 i⟩
  rw [val_main_v31_apply, val_main_v28_apply, val_main_v30_apply, val_main_v29_apply]
  have hl : ∀ k : Fin 512, lidx_main_v28 (ix3 b n o) k = ix3 b n k := fun k =>
    funext fun a => Fin.ext (by match a with | ⟨0, _⟩ => rfl | ⟨1, _⟩ => rfl | ⟨2, _⟩ => rfl)
  have hr : ∀ k : Fin 512, ridx_main_v28 (ix3 b n o) k = ix2 o k := fun k =>
    funext fun a => Fin.ext (by match a with | ⟨0, _⟩ => rfl | ⟨1, _⟩ => rfl)
  have hb : idx_main_v29 (idx_main_v30 (ix3 b n o)) = ix1 o :=
    funext fun a => Fin.ext (by match a with | ⟨0, _⟩ => rfl)
  simp only [hl, hr, hb, v27_eq]
  rfl

end Cert.ReferenceIdeal.RefValue

end
-- ==== Proof.Claims.lean ====
/-
  The claims of the certificate, assembled.

  Both programs compute one function of the five argument arrays (the specification's `result`: a per-token
  attention across the eight heads between two linear projections). The kernel computes it in two pipelined regions —
  the first projects a block of 512 tokens, runs the attention head by head and stores each head's output already in
  the re-laid order; the second is the output projection over blocks of 2048 rows — joined by reshapes that move no
  element; the reference computes it as one chain of whole-array operations. No law beyond re-indexing joins the
  two sides: every product and every sum is taken over the same terms in the same grouping, so the precondition is
  not used by the value claim.
-/
import proofs.«148005_j45561013076014_2_alg».proof.Defs
import proofs.«148005_j45561013076014_2_alg».proof.Proof.Gen.Kernel.Frame
import proofs.«148005_j45561013076014_2_alg».proof.Proof.Gen.KernelIdeal.Frame
import proofs.«148005_j45561013076014_2_alg».proof.Proof.Gen.ReferenceIdeal.Run
import proofs.«148005_j45561013076014_2_alg».proof.Proof.Gen.ReferenceIdeal.Read
import proofs.«148005_j45561013076014_2_alg».proof.Proof.Gen.Pre_finite_inputs
import proofs.«148005_j45561013076014_2_alg».proof.Proof.Gen.Kernel
import proofs.«148005_j45561013076014_2_alg».proof.Proof.Gen.KernelIdeal
import proofs.«148005_j45561013076014_2_alg».proof.Proof.Gen.ReferenceIdeal
import proofs.«148005_j45561013076014_2_alg».proof.Proof.KernelRun
import proofs.«148005_j45561013076014_2_alg».proof.Proof.Bridge
import proofs.«148005_j45561013076014_2_alg».proof.Proof.RefSide

set_option maxRecDepth 16384

noncomputable section

namespace Cert.Proof.AttnClaims

open Idealize.ShloMosaic Idealize.ShloMosaic.TcCoe Idealize.SL.Sem

section KernelValue
open Cert.KernelIdeal Cert.KernelIdeal.Gen

/-- The kernel's result array at the end of its run is the specification's result of the argument arrays: the
    second region's output viewed as [4, 4096, 512], that region reading the first region's output flattened. -/
theorem kernel_value (m : (ℓ : Loc nD τ sig) → Buf (Elt Ideal) ℓ) (ρ : Dev nD → PrngReg) (c : Dev nD) :
    W5 m ρ c (Proc.devRef .tc main_v8)
      = Cert.Attn.result (m ((c : Thread nD τ).loc main_arg0)) (m ((c : Thread nD τ).loc main_arg1))
          (m ((c : Thread nD τ).loc main_arg2)) (m ((c : Thread nD τ).loc main_arg3)) (m ((c : Thread nD τ).loc main_arg4)) := by
  rw [Cert.KernelIdeal.KRun.result_eq m ρ c, Cert.KernelIdeal.Region1.final (V3 m ρ) c,
    Cert.KernelIdeal.KRun.entry1_v6 m ρ c, Cert.KernelIdeal.KRun.entry1_v4 m ρ c, Cert.KernelIdeal.KRun.entry1_arg4 m ρ c,
    Cert.KernelIdeal.Region0.final (V1 m ρ) c,
    Cert.KernelIdeal.KRun.entry0_v0 m ρ c, Cert.KernelIdeal.KRun.entry0_v2 m ρ c, Cert.KernelIdeal.KRun.entry0_arg2 m ρ c]
  exact Cert.KernelIdeal.Bridge.kernel_result _ _ _ _ _

end KernelValue

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs, from memories agreeing on the arguments, end with the specification's result of
    those arguments. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_value m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.ReferenceIdeal.RefValue.ref_result,
      (hagree c).1, (hagree c).2.1, (hagree c).2.2.1, (hagree c).2.2.2.1, (hagree c).2.2.2.2]

end Cert.Proof.AttnClaims

end
-- ==== Proof.lean ====
/-
  The proof of `Cert.Claim`: the kernel (a per-token attention across heads between two projections, in two
  pipelined regions) against its reference, at the ideal values.

  Proof/Spec.lean states the common function; Proof/RefSide.lean reads the reference's run stage by stage into it;
  Proof/Head.lean, Proof/Body0.lean and Proof/Block0.lean read the first region's body (one head in three stages, the
  projection and its three parts, the eight stored pieces together), Proof/Region0.lean and Proof/Region1.lean go from
  blocks to whole arrays, Proof/KernelRun.lean is the run of both regions with the result array named,
  Proof/Bridge.lean composes the regions through the reshapes between them, and Proof/Claims.lean assembles the five
  claims.
-/
import proofs.«148005_j45561013076014_2_alg».proof.Defs
import proofs.«148005_j45561013076014_2_alg».proof.Proof.Claims
import proofs.«148005_j45561013076014_2_alg».proof.Proof.Gen.Kernel
import proofs.«148005_j45561013076014_2_alg».proof.Proof.Gen.KernelIdeal
import proofs.«148005_j45561013076014_2_alg».proof.Proof.Gen.ReferenceIdeal
import proofs.«148005_j45561013076014_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    AttnClaims.frame_kernel, AttnClaims.frame_kernelIdeal, AttnClaims.frame_referenceIdeal, AttnClaims.preserves,
    AttnClaims.algebraic⟩

end Cert.Proof

end
